-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S_ : Shape := ⟨0, ![]⟩
abbrev S16x10 : Shape := ⟨2, ![16, 10]⟩
abbrev S10 : Shape := ⟨1, ![10]⟩
abbrev S100000x128 : Shape := ⟨2, ![100000, 128]⟩
abbrev S100000x16 : Shape := ⟨2, ![100000, 16]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  reducesTo_S_S_d : S_.ReducesTo [] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  bcast_S_S100000x128 : S_.BroadcastsInDim S100000x128 (![] : Fin 0 → Fin S100000x128.rank)
  reducesTo_S100000x128_S_d0_1 : S100000x128.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn_part2 {F : FTy → Type} [FloatOps F] (main_arg9 : FVec F S100000x128 .f32) (main_arg10 : FVec F S100000x16 .f32) (main_v32 : IVec S_ 1) (main_v33 : FVec F S10 .f32) : IVec S_ 1 :=
  let main_cst_12 : FVec F S_ .f32 := constant S_ .f32 0x7F800000#32
  let main_v34 : FVec F S10 .f32 := broadcastInDim S10 ![] bcast_S_S10 main_cst_12
  let main_v35 : IVec S10 1 := cmpf .olt main_v33 main_v34
  let main_c_13 : IVec S_ 1 := constantI S_ 1 1#1
  let main_v36 : IVec S_ 1 := (fun x v => Host.reduce IntOp.andi x v reducesTo_S10_S_d0 h_S_) main_v35 main_c_13
  let main_v37 : IVec S_ 1 := andi main_v32 main_v36
  let main_v38 : FVec F S100000x128 .f32 := Host.absf main_arg9
  let main_cst_14 : FVec F S_ .f32 := constant S_ .f32 0x7F800000#32
  let main_v39 : FVec F S100000x128 .f32 := broadcastInDim S100000x128 ![] bcast_S_S100000x128 main_cst_14
  let main_v40 : IVec S100000x128 1 := cmpf .olt main_v38 main_v39
  let main_c_15 : IVec S_ 1 := constantI S_ 1 1#1
  let main_v41 : IVec S_ 1 := (fun x v => Host.reduce IntOp.andi x v reducesTo_S100000x128_S_d0_1 h_S_) main_v40 main_c_15
  let main_v42 : IVec S_ 1 := andi main_v37 main_v41
  let main_v43 : FVec F S100000x16 .f32 := Host.absf main_arg10
  let main_cst_16 : FVec F S_ .f32 := constant S_ .f32 0x7F800000#32
  let main_v44 : FVec F S100000x16 .f32 := broadcastInDim S100000x16 ![] bcast_S_S100000x16 main_cst_16
  let main_v45 : IVec S100000x16 1 := cmpf .olt main_v43 main_v44
  let main_c_17 : IVec S_ 1 := constantI S_ 1 1#1
  let main_v46 : IVec S_ 1 := (fun x v => Host.reduce IntOp.andi x v reducesTo_S100000x16_S_d0_1 h_S_) main_v45 main_c_17
  let main_v47 : IVec S_ 1 := andi main_v42 main_v46
  main_v47

def fn_part1 {F : FTy → Type} [FloatOps F] (main_arg5 : FVec F S16 .f32) (main_arg6 : FVec F S_ .f32) (main_arg7 : FVec F S16x10 .f32) (main_arg8 : FVec F S10 .f32) (main_arg9 : FVec F S100000x128 .f32) (main_arg10 : FVec F S100000x16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S16x10 .f32 := Host.absf main_arg7
  let main_cst_10 : FVec F S_ .f32 := constant S_ .f32 0x7F800000#32
  let main_v29 : FVec F S16x10 .f32 := broadcastInDim S16x10 ![] bcast_S_S16x10 main_cst_10
  let main_v30 : IVec S16x10 1 := cmpf .olt main_v28 main_v29
  let main_c_11 : IVec S_ 1 := constantI S_ 1 1#1
  let main_v31 : IVec S_ 1 := (fun x v => Host.reduce IntOp.andi x v reducesTo_S16x10_S_d0_1 h_S_) main_v30 main_c_11
  let main_v32 : IVec S_ 1 := andi main_v27 main_v31
  let main_v33 : FVec F S10 .f32 := Host.absf main_arg8
  fn_part2 (F := F) main_arg9 main_arg10 main_v32 main_v33

def fn {F : FTy → Type} [FloatOps F] (main_arg0 : FVec F S100000x512 .f32) (main_arg1 : IVec S2x1600000 32) (main_arg2 : FVec F S512x128 .f32) (main_arg3 : FVec F S128 .f32) (main_arg4 : FVec F S128x16 .f32) (main_arg5 : FVec F S16 .f32) (main_arg6 : FVec F S_ .f32) (main_arg7 : FVec F S16x10 .f32) (main_arg8 : FVec F S10 .f32) (main_arg9 : FVec F S100000x128 .f32) (main_arg10 : FVec F S100000x16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_arg7 main_arg8 main_arg9 main_arg10 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S_ : Shape := ⟨0, ![]⟩
abbrev S16x10 : Shape := ⟨2, ![16, 10]⟩
abbrev S10 : Shape := ⟨1, ![10]⟩
abbrev S100000x128 : Shape := ⟨2, ![100000, 128]⟩
abbrev S100000x16 : Shape := ⟨2, ![100000, 16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S4000x512 : Shape := ⟨2, ![4000, 512]⟩
abbrev S4000x128 : Shape := ⟨2, ![4000, 128]⟩
abbrev S1700000x128 : Shape := ⟨2, ![1700000, 128]⟩
abbrev S1x128 : Shape := ⟨2, ![1, 128]⟩
abbrev S1x1 : Shape := ⟨2, ![1, 1]⟩
abbrev S4000x16 : Shape := ⟨2, ![4000, 16]⟩
abbrev S1700000x16 : Shape := ⟨2, ![1700000, 16]⟩
abbrev S1x16 : Shape := ⟨2, ![1, 16]⟩
abbrev S1x10 : Shape := ⟨2, ![1, 10]⟩
abbrev S100000x10 : Shape := ⟨2, ![100000, 10]⟩
abbrev S4000x10 : Shape := ⟨2, ![4000, 10]⟩

abbrev nBuf : Space → Nat
  | .hbm => 92
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S_, .f32⟩
  | .hbm, ⟨7, _⟩ => ⟨S16x10, .f32⟩
  | .hbm, ⟨8, _⟩ => ⟨S10, .f32⟩
  | .hbm, ⟨9, _⟩ => ⟨S100000x128, .f32⟩
  | .hbm, ⟨10, _⟩ => ⟨S100000x16, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S1x1, .f32⟩
  | .hbm, ⟨70, _⟩ => ⟨S100000x16, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x16, .f32⟩
  | .hbm, ⟨81, _⟩ => ⟨S1700000x16, .f32⟩
  | .hbm, ⟨82, _⟩ => ⟨S1700000x16, .f32⟩
  | .hbm, ⟨83, _⟩ => ⟨S_, .f32⟩
  | .hbm, ⟨84, _⟩ => ⟨S100000x16, .f32⟩
  | .hbm, ⟨85, _⟩ => ⟨S1700000x1, .i32⟩
  | .hbm, ⟨86, _⟩ => ⟨S100000x16, .f32⟩
  | .hbm, ⟨87, _⟩ => ⟨S1x16, .f32⟩
  | .hbm, ⟨88, _⟩ => ⟨S1x1, .f32⟩
  | .hbm, ⟨89, _⟩ => ⟨S1x10, .f32⟩
  | .hbm, ⟨90, _⟩ => ⟨S100000x16, .f32⟩
  | .hbm, ⟨91, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x1, .f32⟩
  | .local _ .vmem, ⟨9, _⟩ => ⟨S4000x128, .f32⟩
  | .local _ .vmem, ⟨10, _⟩ => ⟨S4000x128, .f32⟩
  | .local _ .vmem, ⟨11, _⟩ => ⟨S128x16, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S1x16, .f32⟩
  | .local _ .vmem, ⟨17, _⟩ => ⟨S1x1, .f32⟩
  | .local _ .vmem, ⟨18, _⟩ => ⟨S4000x16, .f32⟩
  | .local _ .vmem, ⟨19, _⟩ => ⟨S4000x16, .f32⟩
  | .local _ .vmem, ⟨20, _⟩ => ⟨S16x10, .f32⟩
  | .local _ .vmem, ⟨21, _⟩ => ⟨S1x10, .f32⟩
  | .local _ .vmem, ⟨22, _⟩ => ⟨S4000x16, .f32⟩
  | .local _ .vmem, ⟨23, _⟩ => ⟨S4000x16, .f32⟩
  | .local _ .vmem, ⟨24, _⟩ => ⟨S4000x10, .f32⟩
  | .local _ .vmem, ⟨25, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S16x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x10 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S_S1x1 : S_.ShapeCasts S1x1
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10_S1x10 : S10.ShapeCasts S1x10
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  broadcasts_S1x1_S4000x16 : S1x1.Broadcasts S4000x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  inb_S4000x10_S4000x10_0_0 : ∀ a, (![0, 0] : Fin 2 → Nat) a + S4000x10.size a ≤ S4000x10.size a
  h_S4000x10 : 0 < S4000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x16_S4000x16_1_0_0_1_n_n_wf : DotDims.WF S4000x128 S128x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S4000x16_S16x10_S4000x10_1_0_0_1_n_n_wf : DotDims.WF S4000x16 S16x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S100000x16.size a
  hwx2_3 : ∀ i : grid2.Coords, EltTy.bits .f32 = 32 ∨ (Rect.block (s := S100000x16) S4000x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x10.size a ≤ S16x10.size a
  hwx2_4 : ∀ i : grid2.Coords, EltTy.bits .f32 = 32 ∨ (Rect.block (s := S16x10) S16x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x16.size a ≤ S100000x16.size a
  hwx2_6 : ∀ i : grid2.Coords, EltTy.bits .f32 = 32 ∨ (Rect.block (s := S100000x16) S4000x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x10.size a ≤ S100000x10.size a
  hwx2_7 : ∀ i : grid2.Coords, EltTy.bits .f32 = 32 ∨ (Rect.block (s := S100000x10) S4000x10.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S4000x16_S16x10_S4000x10_1_0_0_1_n_n : DotDims S4000x16 S16x10 S4000x10 where
  lhsContracting := [1]
  rhsContracting := [0]
  lhsNonContracting := [0]
  rhsNonContracting := [1]
  lhsBatch := []
  rhsBatch := []
  wf := dot_S4000x16_S16x10_S4000x10_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S4000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S4000x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S16x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63_0) S4000x16.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v63_1) S4000x10.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S_ : Shape := ⟨0, ![]⟩
abbrev S16x10 : Shape := ⟨2, ![16, 10]⟩
abbrev S10 : Shape := ⟨1, ![10]⟩
abbrev S100000x128 : Shape := ⟨2, ![100000, 128]⟩
abbrev S100000x16 : Shape := ⟨2, ![100000, 16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S1700000x16 : Shape := ⟨2, ![1700000, 16]⟩
abbrev S1x16 : Shape := ⟨2, ![1, 16]⟩
abbrev S100000x10 : Shape := ⟨2, ![100000, 10]⟩
abbrev S1x10 : Shape := ⟨2, ![1, 10]⟩

abbrev nBuf : Space → Nat
  | .hbm => 127
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S_, .f32⟩
  | .hbm, ⟨7, _⟩ => ⟨S16x10, .f32⟩
  | .hbm, ⟨8, _⟩ => ⟨S10, .f32⟩
  | .hbm, ⟨9, _⟩ => ⟨S100000x128, .f32⟩
  | .hbm, ⟨10, _⟩ => ⟨S100000x16, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .i1⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x16, .f32⟩
  | .hbm, ⟨88, _⟩ => ⟨S1700000x1, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x16, .f32⟩
  | .hbm, ⟨98, _⟩ => ⟨S1700000x16, .f32⟩
  | .hbm, ⟨99, _⟩ => ⟨S1700000x16, .f32⟩
  | .hbm, ⟨100, _⟩ => ⟨S_, .f32⟩
  | .hbm, ⟨101, _⟩ => ⟨S100000x16, .f32⟩
  | .hbm, ⟨102, _⟩ => ⟨S1700000x1, .i32⟩
  | .hbm, ⟨103, _⟩ => ⟨S100000x16, .f32⟩
  | .hbm, ⟨104, _⟩ => ⟨S1x16, .f32⟩
  | .hbm, ⟨105, _⟩ => ⟨S100000x16, .f32⟩
  | .hbm, ⟨106, _⟩ => ⟨S100000x16, .f32⟩
  | .hbm, ⟨107, _⟩ => ⟨S_, .f32⟩
  | .hbm, ⟨108, _⟩ => ⟨S100000x16, .f32⟩
  | .hbm, ⟨109, _⟩ => ⟨S100000x16, .i1⟩
  | .hbm, ⟨110, _⟩ => ⟨S100000x16, .f32⟩
  | .hbm, ⟨111, _⟩ => ⟨S100000x16, .f32⟩
  | .hbm, ⟨112, _⟩ => ⟨S100000x16, .f32⟩
  | .hbm, ⟨113, _⟩ => ⟨S_, .f32⟩
  | .hbm, ⟨114, _⟩ => ⟨S100000x16, .f32⟩
  | .hbm, ⟨115, _⟩ => ⟨S100000x16, .i1⟩
  | .hbm, ⟨116, _⟩ => ⟨S_, .f32⟩
  | .hbm, ⟨117, _⟩ => ⟨S100000x16, .f32⟩
  | .hbm, ⟨118, _⟩ => ⟨S100000x16, .f32⟩
  | .hbm, ⟨119, _⟩ => ⟨S_, .f32⟩
  | .hbm, ⟨120, _⟩ => ⟨S_, .f32⟩
  | .hbm, ⟨121, _⟩ => ⟨S100000x16, .f32⟩
  | .hbm, ⟨122, _⟩ => ⟨S100000x16, .f32⟩
  | .hbm, ⟨123, _⟩ => ⟨S100000x10, .f32⟩
  | .hbm, ⟨124, _⟩ => ⟨S1x10, .f32⟩
  | .hbm, ⟨125, _⟩ => ⟨S100000x10, .f32⟩
  | .hbm, ⟨126, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_17 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_call4_v0 : Ref sig .tc := ⟨.hbm, 120, rfl⟩
abbrev main_call4_v1 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x10_S100000x10_1_0_0_1_n_n_wf : DotDims.WF S100000x16 S16x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.KernelRun.lean ====
/-
  The idealized kernel's run, with its two results named.

  The program is three pipelined calls among stretches of host operations. Its run goes boundary by boundary: from
  the launch memory through the host lines to the first call's entry contents, through that call (its arrays end at
  what its write-backs leave, every other buffer as entered), and so on; the last boundary's contents are `W8`.
  Every weakly fair execution therefore terminates with EVERY buffer at `W8` — in particular the two result
  buffers, the third call's two output arrays, and the eleven argument buffers, which nothing writes, at their launch
  contents. The frame claim keeps only the arguments out of that final state; the value claim needs the two results
  as well, which is this statement.
-/
import proofs.«150170_j4174708212139_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result buffers are not scoped to a call: they are among the buffers the final state is read at. -/
theorem res0_mem : Proc.devRef .tc main_v63_0 ∈ Pipeline.ucRefs τ sig := mem_uc main_v63_0 (by decide)
theorem res1_mem : Proc.devRef .tc main_v63_1 ∈ Pipeline.ucRefs τ sig := mem_uc main_v63_1 (by decide)

set_option backward.isDefEq.respectTransparency.types false in
/-- Every weakly fair execution of the idealized kernel terminates, nothing faulting, with the two result buffers at
    the last boundary's contents `W8` and the argument buffers as launched. -/
theorem run_named : θ_run defs (onTc (τ := τ) (main (F := F))) ⟨m, fun _ => 0, ρ⟩ (fun r => ∀ c : Dev nD,
      r.2.mem ((c.tc : Thread nD τ).loc main_v63_0) = W8 m ρ c (Proc.devRef .tc main_v63_0)
      ∧ r.2.mem ((c.tc : Thread nD τ).loc main_v63_1) = W8 m ρ c (Proc.devRef .tc main_v63_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ res0_mem,
       h c _ res1_mem,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Gcn.KernelRun

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Region0.lean ====
/-
  The first layer's linear map x·W1, as the first pipelined call computes it, is the reference's product.

  The call walks the 100000 rows of x in 25 bands of 4000 rows. At band t its body takes rows 4000·t … 4000·t + 3999 of
  x (a [4000, 512] block) and the whole of W1 ([512, 128]), multiplies them on the matrix unit into a zero accumulator,
  and writes the [4000, 128] product back as rows 4000·t … 4000·t + 3999 of the result. Entry (p, q) of a band's product
  is ∑ k, x(4000·t + p, k) · W1(k, q): narrowing the two operands to bfloat16 first changes nothing over the extended
  reals. So band t of the result is band t of ONE function of the two arrays, (r, q) ↦ ∑ k, x(r, k) · W1(k, q); the 25
  bands tile the rows (row r lies in band r / 4000), so the result array is that function; and that function is the
  reference's dot_general read index by index.
-/
import proofs.«150170_j4174708212139_1_alg».proof.Proof.Gen.KernelIdeal.Frame
import proofs.«150170_j4174708212139_1_alg».proof.Proof.RefRead
import proofs.«150170_j4174708212139_1_alg».proof.Proof.LibDenseLayer
import Idealize.ShloMosaic.Lib.Pipeline.Value
import Idealize.ShloMosaic.Lib.ValueIdx

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The product of the two arrays, entry by entry -/

/-- Entry (r, q) of the product of a [100000, 512] array by a [512, 128] array: ∑ k, a0(r, k) · a2(k, q). -/
def prodAt (a0 : S100000x512.Idx → EReal) (a2 : S512x128.Idx → EReal) (r : Fin 100000) (q : Fin 128) : EReal :=
  ∑ k : Fin 512, a0 (ix2 r k) * a2 (ix2 k q)

/-- The product as a [100000, 128] array. -/
def prod (a0 : S100000x512.Idx → EReal) (a2 : S512x128.Idx → EReal) : S100000x128.Idx → EReal :=
  fun i => prodAt a0 a2 (i 0) (i 1)

/-! ## One band's product at an entry -/

/-- The matrix unit's left index takes the output row on its first axis, -/
theorem lhs0 (i : S4000x128.Idx) (q : dot_S4000x512_S512x128_S4000x128_1_0_0_1_n_n.contr.Idx) :
    (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
/-- and the contraction position on its second; -/
theorem lhs1 (i : S4000x128.Idx) (q : dot_S4000x512_S512x128_S4000x128_1_0_0_1_n_n.contr.Idx) :
    (dot_S4000x512_S512x128_S4000x128_1_0_0_1_n_n.lhsIdx i q 1).val = (q ⟨0, by decide⟩).val :=
  dot_S4000x512_S512x128_S4000x128_1_0_0_1_n_n.lhsIdx_val_of_single rfl i q
/-- the right index takes the contraction position on its first axis, -/
theorem rhs0 (i : S4000x128.Idx) (q : dot_S4000x512_S512x128_S4000x128_1_0_0_1_n_n.contr.Idx) :
    (dot_S4000x512_S512x128_S4000x128_1_0_0_1_n_n.rhsIdx i q 0).val = (q ⟨0, by decide⟩).val :=
  dot_S4000x512_S512x128_S4000x128_1_0_0_1_n_n.rhsIdx_val_of_single rfl i q
/-- and the output column on its second. -/
theorem rhs1 (i : S4000x128.Idx) (q : dot_S4000x512_S512x128_S4000x128_1_0_0_1_n_n.contr.Idx) :
    (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

set_option maxHeartbeats 400000 in
/-- The body's stored value at (p, q): the band's row p against W1's column q. The two narrowings to bfloat16 are the
    identity on extended reals. -/
theorem pay_apply (x0 : Vec Ideal S4000x512 .f32) (x1 : Vec Ideal S512x128 .f32) (p : Fin 4000) (q : Fin 128) :
    k0_pay1 (F := Ideal) x0 x1 (ix2 p q) = ∑ k : Fin 512, x0 (ix2 p k) * x1 (ix2 k q) := by
  unfold k0_pay1
  exact Cert.DenseLayer.matmul_rows_cols dot_S4000x512_S512x128_S4000x128_1_0_0_1_n_n rfl rfl lhs0 lhs1 rhs0 rhs1 none
    (truncf .bf16 x0 bitsLt_bf16_f32) (truncf .bf16 x1 bitsLt_bf16_f32) p q

set_option maxHeartbeats 400000 in
/-- A band's product at block index j is the arrays' product at array index i, when the band's rows are the rows of a0
    that i's row sits among (h0: the band read at a row of the same height as j, against a0 at i's row, same column),
    the second operand is a2 whole, and j and i name the same column. -/
theorem block_entry (a0 : S100000x512.Idx → EReal) (a2 : S512x128.Idx → EReal)
    (x0 : Vec Ideal S4000x512 .f32) (x1 : Vec Ideal S512x128 .f32) (j : S4000x128.Idx) (i : S100000x128.Idx)
    (h0 : ∀ (y : S4000x512.Idx) (z : S100000x512.Idx), (y 0).val = (j 0).val → (z 0).val = (i 0).val → (y 1).val = (z 1).val → x0 y = a0 z)
    (h1 : x1 = a2) (hq : (j 1).val = (i 1).val) :
    k0_pay1 (F := Ideal) x0 x1 j = prod a0 a2 i := by
  obtain ⟨p, q, rfl⟩ : ∃ (p : Fin 4000) (q : Fin 128), j = ix2 p q := ⟨j 0, j 1, eq_ix2 j⟩
  rw [pay_apply]
  unfold prod prodAt
  subst h1
  refine Finset.sum_congr rfl fun k _ => ?_
  have eq : (ix2 k q : S512x128.Idx) = ix2 k (i 1) := funext fun a => Fin.ext (by
    match a with
    | ⟨0, _⟩ => rfl
    | ⟨1, _⟩ => exact hq)
  rw [h0 (ix2 p k) (ix2 (i 0) k) rfl rfl rfl, eq]
  rfl

/-! ## What band t writes back -/

theorem hz : (![0, 0] : Fin 2 → Nat) = fun _ => 0 := funext fun a => by fin_cases a <;> rfl

/-- The three index maps over the 25 points: x's band and the result's band sit at block row t, block column 0; W1's
    block is at (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

set_option maxHeartbeats 400000 in
/-- Band t of the result, as written back, is band t of the arrays' product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨e00, e01, e10, e11, e20, e21⟩ := idx_facts t
  funext j
  show k0_pay1 (F := Ideal) (iblk0 V c 0 t) (iblk0 V c 1 t) ((cfg0.win 2).xinj (grid0.coords t) j)
    = prod (V c main_arg0) (V c main_arg2) (((cfg0.win 2).blk t).view.emb j)
  refine block_entry (V c main_arg0) (V c main_arg2) (iblk0 V c 0 t) (iblk0 V c 1 t)
    ((cfg0.win 2).xinj (grid0.coords t) j) (((cfg0.win 2).blk t).view.emb j) ?_ ?_ ?_
  · -- x's band at point t, read at a row of j's height, is x at the row 4000·t + that height
    intro y z hy hz0 hc
    unfold iblk0
    rw [View.read_apply]
    show V c main_arg0 (((cfg0.win 0).blk t).view.emb y) = V c main_arg0 z
    refine congrArg (V c main_arg0) (funext fun a => Fin.ext ?_)
    match a with
    | ⟨0, _⟩ =>
      show win0_0.index t (0 : Fin 2) * 4000 + 1 * (y 0).val = (z 0).val
      have hz' : (z 0).val = win0_2.index t (0 : Fin 2) * 4000 + 1 * (j 0).val := hz0
      have hy' : (y 0).val = (j 0).val := hy
      omega
    | ⟨1, _⟩ =>
      show win0_0.index t (1 : Fin 2) * 512 + 1 * (y 1).val = (z 1).val
      have hc' : (y 1).val = (z 1).val := hc
      omega
  · -- W1's block at every point is W1
    unfold iblk0
    funext y
    rw [View.read_apply]
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · show (j 1).val = win0_2.index t (1 : Fin 2) * 128 + 1 * (j 1).val
    omega

/-! ## The bands cover the rows -/

/-- An index of the result is in band t iff each coordinate is in the band's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Row r lies in band r / 4000, and every band is written back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-! ## The product is the reference's dot_general -/

/-- Index by index: the reference's left index at (i, k) is (row of i, k), its right index (k, column of i). -/
theorem prod_eq_ref (a0 : S100000x512.Idx → EReal) (a2 : S512x128.Idx → EReal) :
    prod a0 a2 = Cert.ReferenceIdeal.ReadP.val_main_v30 (F := Ideal) a0 a2 := by
  funext i
  rw [Cert.ReferenceIdeal.ReadP.val_main_v30_apply]
  unfold prod prodAt
  refine Finset.sum_congr rfl fun k _ => ?_
  have el : (ix2 (i 0) k : S100000x512.Idx) = Cert.ReferenceIdeal.ReadP.lidx_main_v30 i k := funext fun a => by
    match a with
    | ⟨0, _⟩ => rfl
    | ⟨1, _⟩ => rfl
  have er : (ix2 k (i 1) : S512x128.Idx) = Cert.ReferenceIdeal.ReadP.ridx_main_v30 i k := funext fun a => by
    match a with
    | ⟨0, _⟩ => rfl
    | ⟨1, _⟩ => rfl
  rw [el, er]

/-! ## The result array -/

/-- After the call's 25 write-backs the result array is the reference's x·W1 of the two arrays as the call found them. -/
theorem array_eq (c : Dev nD) :
    (dat0 V c).arrAt 2 cfg0.N = Cert.ReferenceIdeal.ReadP.val_main_v30 (F := Ideal) (V c main_arg0) (V c main_arg2) :=
  ((dat0 V c).arrAt_eq_of_cover 2 (prod (V c main_arg0) (V c main_arg2)) (fun t _ => flushed_eq V c t) cover).trans
    (prod_eq_ref (V c main_arg0) (V c main_arg2))

end Cert.Gcn.Region0

end
-- ==== Proof.Region1Kernel.lean ====
/-
  The second kernel of the two-layer graph convolution: what it leaves in its output array.

  At grid point t the body loads rows 4000·t … 4000·t + 3999 of the aggregated features (a [4000,128] block) and of
  the dropout mask, the bias as a [1,128] row, the rectifier's slope as a [1,1] cell and the whole [128,16] weight
  matrix. Entry (p, k) of the block is activated — bias added, h if h > 0 else slope·h, kept and doubled where the
  mask is at least 1/2 and zeroed elsewhere — and the activated block is multiplied into the weights: entry (p, q) of
  the stored [4000,16] block is ∑ k, act(p, k) · W(k, q). The 25 blocks tile the [100000,16] array, so the array
  ends holding, at (r, q), the same sum over row r of the whole arrays.
-/
import proofs.«150170_j4174708212139_1_alg».proof.Proof.Gen.KernelIdeal.Frame
import proofs.«150170_j4174708212139_1_alg».proof.Proof.LibDenseLayer
import Idealize.ShloMosaic.Lib.ValueLayout
import Idealize.ShloMosaic.Lib.Pipeline.Value

noncomputable section

namespace Cert.Gcn.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## One activation, and the layer at an entry -/

/-- One activated entry: the bias b added to h, the rectifier with slope a (z if z > 0 else a·z), then the dropout
    keep: doubled where the mask value u is at least 1/2, zero elsewhere. The three float words stay words. -/
def act (h b a u : EReal) : EReal :=
  Scalar.select (Ideal.cmp .oge u (Ideal.ofBits .f32 0x3F000000#32))
    (Scalar.select (Ideal.cmp .ogt (h + b) (Ideal.ofBits .f32 0x00000000#32)) (h + b) (a * (h + b))
      * Ideal.ofBits .f32 0x40000000#32)
    (Ideal.ofBits .f32 0x00000000#32)

/-- Entry (r, q) of the layer's output: row r of the activated features times column q of the weights. -/
def layerAt (agg : S100000x128.Idx → EReal) (b : S1x128.Idx → EReal) (a : S1x1.Idx → EReal)
    (u : S100000x128.Idx → EReal) (W : S128x16.Idx → EReal) (r : Fin 100000) (q : Fin 16) : EReal :=
  ∑ k : Fin 128, act (agg (ix2 r k)) (b (ix2 (0 : Fin 1) k)) (a (ix2 (0 : Fin 1) (0 : Fin 1))) (u (ix2 r k)) * W (ix2 k q)

/-- The layer's output as an array. -/
def layer (agg : S100000x128.Idx → EReal) (b : S1x128.Idx → EReal) (a : S1x1.Idx → EReal)
    (u : S100000x128.Idx → EReal) (W : S128x16.Idx → EReal) : S100000x16.Idx → EReal :=
  fun i => layerAt agg b a u W ⟨(i 0).val, idx2_lt0 i⟩ ⟨(i 1).val, idx2_lt1 i⟩

theorem layer_apply (agg : S100000x128.Idx → EReal) (b : S1x128.Idx → EReal) (a : S1x1.Idx → EReal)
    (u : S100000x128.Idx → EReal) (W : S128x16.Idx → EReal) (r : Fin 100000) (q : Fin 16) :
    layer agg b a u W (ix2 r q) = layerAt agg b a u W r q := rfl

/-! ## The body's payload at an entry -/

/-- A [1,1] cell broadcast to [a,b] reads the cell everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The activated block at (p, k), from the loaded blocks. -/
theorem epilogue_apply (v0 : FVec Ideal S4000x128 .f32) (v2 : FVec Ideal S1x128 .f32) (v6 : FVec Ideal S1x1 .f32)
    (v13 : FVec Ideal S4000x128 .f32) (h2 : S1x128.Broadcasts S4000x128) (h6 : S1x1.Broadcasts S4000x128)
    (p : Fin 4000) (k : Fin 128) :
    select (cmpf .oge v13 (broadcast S4000x128 (Scalar.ofBits (F := Ideal) .f32 0x3F000000#32)))
        (mulf (select (cmpf .ogt (addf v0 (broadcastTo S4000x128 v2 h2)) (broadcast S4000x128 (Scalar.ofBits (F := Ideal) .f32 0x00000000#32)))
                (addf v0 (broadcastTo S4000x128 v2 h2))
                (mulf (broadcastTo S4000x128 v6 h6) (addf v0 (broadcastTo S4000x128 v2 h2))))
              (broadcast S4000x128 (Scalar.ofBits (F := Ideal) .f32 0x40000000#32)))
        (broadcast S4000x128 (Scalar.ofBits (F := Ideal) .f32 0x00000000#32)) (ix2 p k)
      = act (v0 (ix2 p k)) (v2 (ix2 (0 : Fin 1) k)) (v6 (ix2 (0 : Fin 1) (0 : Fin 1))) (v13 (ix2 p k)) := by
  have e2 : broadcastTo S4000x128 v2 h2 (ix2 p k) = v2 (ix2 (0 : Fin 1) k) := broadcastTo_1b_ab_apply v2 h2 p k
  have e6 : broadcastTo S4000x128 v6 h6 (ix2 p k) = v6 (ix2 (0 : Fin 1) (0 : Fin 1)) := broadcastTo_11_ab_apply v6 h6 p k
  simp only [select_apply, mulf_apply, cmpf_apply, addf_apply, broadcast_apply, e2, e6]
  rfl

/-- The matrix unit's dimension record: the left index takes the output row and the contraction position … -/
theorem lhs0 (i : S4000x16.Idx) (q : dot_S4000x128_S128x16_S4000x16_1_0_0_1_n_n.contr.Idx) :
    (dot_S4000x128_S128x16_S4000x16_1_0_0_1_n_n.lhsIdx i q 0).val = (i 0).val := by
  unfold DotDims.lhsIdx
  rw [dif_neg (show ¬(0 : Fin S4000x128.rank) ∈ dot_S4000x128_S128x16_S4000x16_1_0_0_1_n_n.lhsBatch by decide),
    dif_pos (show (0 : Fin S4000x128.rank) ∈ dot_S4000x128_S128x16_S4000x16_1_0_0_1_n_n.lhsNonContracting by decide)]
  rfl
theorem lhs1 (i : S4000x16.Idx) (q : dot_S4000x128_S128x16_S4000x16_1_0_0_1_n_n.contr.Idx) :
    (dot_S4000x128_S128x16_S4000x16_1_0_0_1_n_n.lhsIdx i q 1).val = (q ⟨0, by decide⟩).val :=
  dot_S4000x128_S128x16_S4000x16_1_0_0_1_n_n.lhsIdx_val_of_single rfl i q
/-- … and the right index the contraction position and the output column. -/
theorem rhs0 (i : S4000x16.Idx) (q : dot_S4000x128_S128x16_S4000x16_1_0_0_1_n_n.contr.Idx) :
    (dot_S4000x128_S128x16_S4000x16_1_0_0_1_n_n.rhsIdx i q 0).val = (q ⟨0, by decide⟩).val :=
  dot_S4000x128_S128x16_S4000x16_1_0_0_1_n_n.rhsIdx_val_of_single rfl i q
theorem rhs1 (i : S4000x16.Idx) (q : dot_S4000x128_S128x16_S4000x16_1_0_0_1_n_n.contr.Idx) :
    (dot_S4000x128_S128x16_S4000x16_1_0_0_1_n_n.rhsIdx i q 1).val = (i 1).val := by
  unfold DotDims.rhsIdx
  rw [dif_neg (show ¬(1 : Fin S128x16.rank) ∈ dot_S4000x128_S128x16_S4000x16_1_0_0_1_n_n.rhsBatch by decide),
    dif_pos (show (1 : Fin S128x16.rank) ∈ dot_S4000x128_S128x16_S4000x16_1_0_0_1_n_n.rhsNonContracting by decide)]
  rfl

set_option maxHeartbeats 400000 in
/-- Entry (p, q) of the block the body stores is the sum over k of the activated entry (p, k) of the loaded blocks times
    the weight (k, q). -/
theorem pay_apply (v0 : FVec Ideal S4000x128 .f32) (v2 : FVec Ideal S1x128 .f32) (v6 : FVec Ideal S1x1 .f32)
    (v13 : FVec Ideal S4000x128 .f32) (v21 : FVec Ideal S128x16 .f32) (p : Fin 4000) (q : Fin 16) :
    k1_pay1 (F := Ideal) v0 v2 v6 v13 v21 (ix2 p q)
      = ∑ k : Fin 128, act (v0 (ix2 p k)) (v2 (ix2 (0 : Fin 1) k)) (v6 (ix2 (0 : Fin 1) (0 : Fin 1))) (v13 (ix2 p k)) * v21 (ix2 k q) := by
  unfold k1_pay1
  simp only [shapeCast_self]
  refine (Cert.DenseLayer.matmul_rows_cols dot_S4000x128_S128x16_S4000x16_1_0_0_1_n_n rfl rfl lhs0 lhs1 rhs0 rhs1 none _ _ p q).trans ?_
  refine Finset.sum_congr rfl fun k _ => ?_
  refine congrArg (· * v21 (ix2 k q)) ?_
  exact epilogue_apply v0 v2 v6 v13 _ _ p k

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the two row-blocked inputs and the output sit at block row t, column
    block 0; the bias row, the slope cell and the weights are their whole arrays at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the aggregated features is rows 4000·t … of the array. -/
theorem blk0_read (c : Dev nD) (t : Fin cfg1.N) (p : Fin 4000) (k : Fin 128) (r : Fin 100000) (hr : r.val = 4000 * t.val + p.val) :
    (iblk1 V c 0 t : FVec Ideal S4000x128 .f32) (ix2 p k) = (V c main_v43 : S100000x128.Idx → EReal) (ix2 r k) := by
  obtain ⟨e0, e1, -⟩ := idx_facts t
  show (V c main_v43 : S100000x128.Idx → EReal) (((cfg1.win 0).blk t).view.emb (ix2 p k)) = _
  refine congrArg (V c main_v43 : S100000x128.Idx → EReal) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Block t of the dropout mask is the same rows of its array. -/
theorem blk3_read (c : Dev nD) (t : Fin cfg1.N) (p : Fin 4000) (k : Fin 128) (r : Fin 100000) (hr : r.val = 4000 * t.val + p.val) :
    (iblk1 V c 3 t : FVec Ideal S4000x128 .f32) (ix2 p k) = (V c main_arg9 : S100000x128.Idx → EReal) (ix2 r k) := by
  obtain ⟨-, -, -, -, -, -, e0, e1, -⟩ := idx_facts t
  show (V c main_arg9 : S100000x128.Idx → EReal) (((cfg1.win 3).blk t).view.emb (ix2 p k)) = _
  refine congrArg (V c main_arg9 : S100000x128.Idx → EReal) (funext fun a => Fin.ext ?_)
  match a with
  | ⟨0, _⟩ => show win1_3.index t (0 : Fin 2) * 4000 + 1 * p.val = r.val; omega
  | ⟨1, _⟩ => show win1_3.index t (1 : Fin 2) * 128 + 1 * k.val = k.val; omega

/-- The bias row's block is the whole row at every point. -/
theorem blk1_read (c : Dev nD) (t : Fin cfg1.N) (k : Fin 128) :
    (iblk1 V c 1 t : FVec Ideal S1x128 .f32) (ix2 (0 : Fin 1) k) = (V c main_v44 : S1x128.Idx → EReal) (ix2 (0 : Fin 1) k) := by
  obtain ⟨-, -, e0, e1, -⟩ := idx_facts t
  show (V c main_v44 : S1x128.Idx → EReal) (((cfg1.win 1).blk t).view.emb (ix2 (0 : Fin 1) k)) = _
  refine congrArg (V c main_v44 : S1x128.Idx → EReal) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The slope's block is its one cell at every point. -/
theorem blk2_read (c : Dev nD) (t : Fin cfg1.N) :
    (iblk1 V c 2 t : FVec Ideal S1x1 .f32) (ix2 (0 : Fin 1) (0 : Fin 1)) = (V c main_v45 : S1x1.Idx → EReal) (ix2 (0 : Fin 1) (0 : Fin 1)) := by
  obtain ⟨-, -, -, -, e0, e1, -⟩ := idx_facts t
  show (V c main_v45 : S1x1.Idx → EReal) (((cfg1.win 2).blk t).view.emb (ix2 (0 : Fin 1) (0 : Fin 1))) = _
  refine congrArg (V c main_v45 : S1x1.Idx → EReal) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- The weights' block is the whole matrix at every point. -/
theorem blk4_read (c : Dev nD) (t : Fin cfg1.N) (k : Fin 128) (q : Fin 16) :
    (iblk1 V c 4 t : FVec Ideal S128x16 .f32) (ix2 k q) = (V c main_arg4 : S128x16.Idx → EReal) (ix2 k q) := by
  obtain ⟨-, -, -, -, -, -, -, -, e0, e1, -⟩ := idx_facts t
  show (V c main_arg4 : S128x16.Idx → EReal) (((cfg1.win 4).blk t).view.emb (ix2 k q)) = _
  refine congrArg (V c main_arg4 : S128x16.Idx → EReal) (funext fun a => Fin.ext ?_)
  match a with
  | ⟨0, _⟩ => show win1_4.index t (0 : Fin 2) * 128 + 1 * k.val = k.val; omega
  | ⟨1, _⟩ => show win1_4.index t (1 : Fin 2) * 16 + 1 * q.val = q.val; omega

/-- Entry (p, q) of the output's block t sits at row 4000·t + p, column q of the array. -/
theorem out_emb (t : Fin cfg1.N) (p : Fin 4000) (q : Fin 16) (r : Fin 100000) (hr : r.val = 4000 * t.val + p.val) :
    (((cfg1.win 5).blk t).view.emb (ix2 p q) : S100000x16.Idx) = ix2 r q := by
  obtain ⟨-, -, -, -, -, -, -, -, -, -, e0, e1⟩ := idx_facts t
  refine funext fun a => Fin.ext ?_
  match a with
  | ⟨0, _⟩ => show win1_5.index t (0 : Fin 2) * 4000 + 1 * p.val = r.val; omega
  | ⟨1, _⟩ => show win1_5.index t (1 : Fin 2) * 16 + 1 * q.val = q.val; omega

/-- At grid point t the rows written back are rows 4000·t … 4000·t + 3999 of the layer's output, computed from the
    arrays as they stand when the kernel starts. -/
theorem flushed_eq (c : Dev nD) (t : Fin cfg1.N) :
    (dat1 V c).flushed 5 t = ((cfg1.win 5).blk t).view.read (Elt Ideal)
      (layer (V c main_v43) (V c main_v44) (V c main_v45) (V c main_arg9) (V c main_arg4)) := by
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz, View.ld_unit_zero (S := S1x1) hz,
    View.ld_unit_zero (S := S128x16) hz]
  funext j
  obtain ⟨p, q, rfl⟩ : ∃ (p : Fin 4000) (q : Fin 16), j = ix2 p q := ⟨j 0, j 1, eq_ix2 j⟩
  have ht : t.val < 25 := lt_of_lt_of_eq t.isLt N_1
  have hp : 4000 * t.val + p.val < 100000 := by have := p.isLt; omega
  refine (pay_apply (iblk1 V c 0 t) (iblk1 V c 1 t) (iblk1 V c 2 t) (iblk1 V c 3 t) (iblk1 V c 4 t) p q).trans ?_
  show _ = layer (V c main_v43) (V c main_v44) (V c main_v45) (V c main_arg9) (V c main_arg4) (((cfg1.win 5).blk t).view.emb (ix2 p q))
  rw [out_emb t p q ⟨4000 * t.val + p.val, hp⟩ rfl, layer_apply]
  unfold layerAt
  refine Finset.sum_congr rfl fun k _ => ?_
  rw [blk0_read V c t p k ⟨4000 * t.val + p.val, hp⟩ rfl, blk3_read V c t p k ⟨4000 * t.val + p.val, hp⟩ rfl,
    blk1_read V c t k, blk2_read V c t, blk4_read V c t k q]

/-- Entry (r, q) of the array lies in block t exactly when 4000·t ≤ r < 4000·t + 4000; the block spans all 16 columns. -/
theorem mem_blk (t : Fin cfg1.N) (i : S100000x16.Idx) :
    i ∈ ((cfg1.win 5).blk t).view.set ↔ ∀ a : Fin 2, win1_5.index t a * S4000x16.size a ≤ (i a).val
      ∧ (i a).val < win1_5.index t a * S4000x16.size a + S4000x16.size a := by
  show i ∈ ((View.whole main_v46).slice (win1_5.rect t)).set ↔ _
  rw [View.set_slice_whole, Rect.mem_set_unit]
  exact Iff.rfl

/-- The 25 blocks of 4000 rows tile the 100000 rows: row r is in block r / 4000. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 25 := N_1
  let t : Fin cfg1.N := ⟨(i 0).val / 4000, by rw [hN]; omega⟩
  have htv : t.val = (i 0).val / 4000 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 16 ≤ (i 1).val ∧ (i 1).val < win1_5.index t (1 : Fin 2) * 16 + 16; omega

/-- So after the last grid point the output array is the layer's output of those arrays. -/
theorem kernel_array (c : Dev nD) :
    (dat1 V c).arrAt 5 cfg1.N = layer (V c main_v43) (V c main_v44) (V c main_v45) (V c main_arg9) (V c main_arg4) :=
  (dat1 V c).arrAt_eq_of_cover 5 _ (fun t _ => flushed_eq V c t) cover

end Blocks

end Cert.Gcn.Region1

end
-- ==== Proof.DropScale.lean ====
/-
  The dropout scale on the extended reals.

  A kept activation is multiplied by 2 on one side and divided by 1/2 on the other. The two words
  0x40000000 and 0x3F000000 denote the reals 2 and 1/2, and division by a nonzero real is the product
  with its reciprocal at every extended real, the infinities included; so the two scalings are one
  function and no finiteness is asked of the activation.
-/
import Idealize.ShloMosaic.PureOps.Ideal

noncomputable section

namespace Cert.Gcn.DropScale

open Idealize.ShloMosaic

/-- The word 0x40000000 denotes the real 2. -/
theorem ofBits_two : Ideal.ofBits .f32 0x40000000#32 = ((2 : ℝ) : EReal) := by
  simp [Ideal.ofBits, Ideal.ieee, -EReal.coe_mul]; norm_num

/-- The word 0x3F000000 denotes the real 1/2. -/
theorem ofBits_half : Ideal.ofBits .f32 0x3F000000#32 = ((1 / 2 : ℝ) : EReal) := by
  simp [Ideal.ofBits, Ideal.ieee, -EReal.coe_mul]; norm_num

/-- The word 0x00000000 denotes 0. -/
theorem ofBits_zero : Ideal.ofBits .f32 0x00000000#32 = 0 := by
  simp [Ideal.ofBits, Ideal.ieee]

/-- On the extended reals: x · 2 = x / (1/2). -/
theorem mul_two_eq_div_half_ereal (x : EReal) :
    x * Ideal.ofBits .f32 0x40000000#32 = Ideal.div x (Ideal.ofBits .f32 0x3F000000#32) := by
  rw [ofBits_two, ofBits_half, Ideal.div_coe (by norm_num : (1 / 2 : ℝ) ≠ 0)]
  congr 2
  norm_num

/-- The same law in the operations' own spelling: the product with the word for 2 is the host's quotient by the
    word for 1/2. -/
theorem mul_two_eq_div_half (x : Ideal .f32) :
    FloatOps.mulf (F := Ideal) x (Scalar.ofBits .f32 0x40000000#32)
      = FloatOps.hostDivf (F := Ideal) x (Scalar.ofBits .f32 0x3F000000#32) :=
  mul_two_eq_div_half_ereal x

end Cert.Gcn.DropScale

end
-- ==== Proof.Region1.lean ====
/-
  The second kernel of the two-layer graph convolution against the reference's second dense stage.

  Both sides compute, at entry (r, q) of a [100000,16] array, the sum over k of the activated feature (r, k) times
  the weight (k, q), where the activated feature is: bias added, z if z > 0 else slope·z, then kept where the dropout
  mask is at least 1/2 and zeroed elsewhere. They differ in one scalar step only: a kept value is multiplied by 2 on
  the kernel's side and divided by 1/2 on the reference's, which is one function of an extended real. The aggregated
  features going in are the same array on both sides and are never opened.
-/
import proofs.«150170_j4174708212139_1_alg».proof.Proof.Region1Kernel
import proofs.«150170_j4174708212139_1_alg».proof.Proof.RefRead
import proofs.«150170_j4174708212139_1_alg».proof.Proof.DropScale

noncomputable section

namespace Cert.Gcn.Region1

open Cert.KernelIdeal Cert.KernelIdeal.Gen
open Idealize.ShloMosaic Idealize.ShloMosaic.TcCoe Idealize.SL.Sem Idealize.ShloMosaic.ValueIdx
open Cert.ReferenceIdeal.ReadP

/-- The reference's activated feature at (r, k) is the kernel's activation of the same four numbers: the two
    dropout scalings agree on every extended real. -/
theorem ref_act (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal)) (r : Fin 100000) (k : Fin 128) :
    val_main_v56 (F := Ideal) x0 x1 x2 x3 x6 x9 (ix2 r k)
      = act (val_main_v43 (F := Ideal) x0 x1 x2 (ix2 r k)) (x3 (ix1 k)) (x6 ix0) (x9 (ix2 r k)) := by
  have e49 : idx_main_v49 (ix2 r k) = ix0 := funext fun a => a.elim0
  have e44 : idx_main_v44 (idx_main_v45 (ix2 r k)) = ix1 k :=
    funext fun a => Fin.ext (by match a with | ⟨0, _⟩ => rfl)
  rw [val_main_v56_apply, val_main_v53_apply, val_main_v52_apply, val_main_cst_10_apply, val_main_v55_apply,
    val_main_v54_apply, val_main_cst_11_apply, val_main_call2_v1_apply, val_main_call2_v0_apply, val_main_cst_12_apply,
    val_main_v51_apply, val_main_v48_apply, val_main_v47_apply, val_main_cst_9_apply, val_main_v50_apply,
    val_main_v49_apply, val_main_v46_apply, val_main_v45_apply, val_main_v44_apply, e49, e44]
  generalize val_main_v43 (F := Ideal) x0 x1 x2 (ix2 r k) = h
  rw [← Cert.Gcn.DropScale.mul_two_eq_div_half]
  rfl

/-- The kernel's output array equals the reference's second dense stage, given that the aggregated features the kernel
    finds are the reference's, that the bias row and the slope cell are the reference's arguments reshaped, and that the
    mask and the weights are its arguments. -/
theorem array_eq (V : (c : Dev nD) → (b : Ref sig .tc) → Buf (Elt Ideal) ((c : Thread nD τ).loc b)) (c : Dev nD)
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (h43 : V c main_v43 = val_main_v43 (F := Ideal) x0 x1 x2)
    (h44 : ∀ k : Fin 128, V c main_v44 (ix2 0 k) = x3 (ix1 k))
    (h45 : V c main_v45 (ix2 0 0) = x6 ix0)
    (h9 : V c main_arg9 = x9) (h4 : V c main_arg4 = x4) :
    (dat1 V c).arrAt 5 cfg1.N = val_main_v57 (F := Ideal) x0 x1 x2 x3 x4 x6 x9 := by
  rw [kernel_array V c, h43, h9, h4]
  funext i
  obtain ⟨r, q, rfl⟩ : ∃ (r : Fin 100000) (q : Fin 16), i = ix2 r q := ⟨i 0, i 1, eq_ix2 i⟩
  rw [layer_apply, val_main_v57_apply]
  unfold layerAt
  refine Finset.sum_congr rfl fun k _ => ?_
  have el : lidx_main_v57 (ix2 r q) k = ix2 r k :=
    funext fun a => Fin.ext (by match a with | ⟨0, _⟩ => rfl | ⟨1, _⟩ => rfl)
  have er : ridx_main_v57 (ix2 r q) k = ix2 k q :=
    funext fun a => Fin.ext (by match a with | ⟨0, _⟩ => rfl | ⟨1, _⟩ => rfl)
  rw [el, er, ref_act, h44 k, h45]

end Cert.Gcn.Region1

end
-- ==== Proof.Region2.lean ====
/-
  The second layer's epilogue and the classifier, on both programs.

  With `agg` the second layer's aggregated values ([100000, 16]), `b` its bias (16 entries), `a` the rectifier's slope,
  `u` the dropout draws ([100000, 16]), `W` the classifier's weights ([16, 10]) and `d` its bias (10 entries):
      feat(p, k)   = keep(u(p, k)) · scale(prelu(agg(p, k) + b(k), a)),
      logits(p, q) = (∑ k, feat(p, k) · W(k, q)) + d(q),
  where `prelu(h, a)` is `h` where `h > 0` and `a · h` elsewhere, an entry is kept where its draw is at least `1/2` and
  is `0` elsewhere, and a kept entry is scaled by `2`.

  The kernel computes both from row blocks of 4000 rows, one block per grid point, 25 points: `feat` entrywise on the
  block, `logits` as the block's product with the whole weight matrix into a zero accumulator plus the bias row. Each
  point writes its block of each result back, and the 25 blocks tile the 100000 rows, so the two result arrays end
  holding `feat` and `logits` of the arrays the region found (`kernel_feat`, `kernel_logits`).

  The reference computes the same two arrays whole, scaling a kept entry by dividing by `1/2` (`ref_feat`,
  `ref_logits`). Multiplying by `2` and dividing by `1/2` agree on every extended real, so the arrays are equal
  (`feat_eq`, `logits_eq`) once the region's inputs are the reference's: the aggregate (never opened on either side),
  the bias as a `[1, 16]` row, the slope as a `[1, 1]` array, the draws, the weights, and the second bias as a `[1, 10]`
  row. No finiteness is used: sums are read term by term and never distributed.
-/
import proofs.«150170_j4174708212139_1_alg».proof.Proof.Gen.KernelIdeal.Frame
import proofs.«150170_j4174708212139_1_alg».proof.Proof.RefRead
import proofs.«150170_j4174708212139_1_alg».proof.Proof.LibDenseLayer
import proofs.«150170_j4174708212139_1_alg».proof.Proof.DropScale
import Idealize.ShloMosaic.Lib.Pipeline.Value
import Idealize.ShloMosaic.Lib.ValueIdx
import Idealize.ShloMosaic.Lib.ValueLayout

set_option maxRecDepth 16384

noncomputable section

namespace Cert.Gcn.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## One entry of the second layer's features

With `g` the aggregated value, `b` the bias, `a` the rectifier's slope and `u` the dropout draw, the entry is
`keep(u) · scale(prelu(g + b, a))`: `prelu(h, a) = h` where `h > 0` and `a · h` elsewhere; the entry is kept where
`u ≥ 1/2` and is `0` elsewhere. One program scales a kept entry by multiplying by `2`, the other by dividing by
`1/2`; on the extended reals these agree at every value, the infinities included. -/

/-- The rectifier with a learned slope: `h` where `h > 0`, else `a · h`. -/
def prelu (h a : Ideal .f32) : Ideal .f32 :=
  Scalar.select (FloatOps.cmpf (F := Ideal) .ogt h (FloatOps.ofBits .f32 0x00000000#32)) h (FloatOps.mulf (F := Ideal) a h)

/-- The entry with a kept value multiplied by `2`. -/
def featMul (g b a u : Ideal .f32) : Ideal .f32 :=
  Scalar.select (FloatOps.cmpf (F := Ideal) .oge u (FloatOps.ofBits .f32 0x3F000000#32))
    (FloatOps.mulf (F := Ideal) (prelu (FloatOps.addf (F := Ideal) g b) a) (FloatOps.ofBits .f32 0x40000000#32))
    (FloatOps.ofBits .f32 0x00000000#32)

/-- The entry with a kept value divided by `1/2`. -/
def featDiv (g b a u : Ideal .f32) : Ideal .f32 :=
  Scalar.select (FloatOps.cmpf (F := Ideal) .oge u (FloatOps.ofBits .f32 0x3F000000#32))
    (FloatOps.hostDivf (F := Ideal) (prelu (FloatOps.addf (F := Ideal) g b) a) (FloatOps.ofBits .f32 0x3F000000#32))
    (FloatOps.ofBits .f32 0x00000000#32)

/-- Multiplying by `2` is dividing by `1/2`. -/
theorem featMul_eq_featDiv (g b a u : Ideal .f32) : featMul g b a u = featDiv g b a u := by
  unfold featMul featDiv
  rw [Cert.Gcn.DropScale.mul_two_eq_div_half]

/-- The features as an array: entry `(p, k)` from the aggregate at `(p, k)`, the bias row at `k`, the slope and the
    draw at `(p, k)`. The bias is a `[1, 16]` row and the slope a `[1, 1]` array, as the kernel's windows hold them. -/
def featArr (A : S100000x16.Idx → Ideal .f32) (B : S1x16.Idx → Ideal .f32) (a : S1x1.Idx → Ideal .f32)
    (U : S100000x16.Idx → Ideal .f32) : S100000x16.Idx → Ideal .f32 :=
  fun i => featMul (A i) (B (ix2 (0 : Fin 1) (i 1))) (a (ix2 (0 : Fin 1) (0 : Fin 1))) (U i)

/-- The logits as an array: entry `(p, q)` is `∑ k, feat(p, k) · W(k, q)` plus the bias row at `q`. -/
def logitArr (Fe : S100000x16.Idx → Ideal .f32) (W : S16x10.Idx → Ideal .f32) (B : S1x10.Idx → Ideal .f32) :
    S100000x10.Idx → Ideal .f32 :=
  fun i => (∑ k : Fin 16, Fe (ix2 (i 0) k) * W (ix2 k (i 1))) + B (ix2 (0 : Fin 1) (i 1))

/-! ## The kernel's two payloads at an entry of a block -/

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A product and a sum of two vectors read at an index, kept as the scalar operations. -/
theorem mulf_at {s : Shape} {φ : FTy} (x y : FVec Ideal s φ) (i : s.Idx) : mulf x y i = FloatOps.mulf (x i) (y i) := rfl
theorem addf_at {s : Shape} {φ : FTy} (x y : FVec Ideal s φ) (i : s.Idx) : addf x y i = FloatOps.addf (x i) (y i) := rfl

set_option maxHeartbeats 400000 in
/-- The first payload at `(r, k)` of a block: the entry, from the aggregate block at `(r, k)`, the bias row at `k`, the
    slope, and the draw block at `(r, k)`. -/
theorem pay1_at (v0 : Vec Ideal S4000x16 .f32) (v2 : Vec Ideal S1x16 .f32) (v6 : Vec Ideal S1x1 .f32)
    (v13 : Vec Ideal S4000x16 .f32) (r : Fin 4000) (k : Fin 16) :
    k2_pay1 v0 v2 v6 v13 (ix2 r k)
      = featMul (v0 (ix2 r k)) (v2 (ix2 (0 : Fin 1) k)) (v6 (ix2 (0 : Fin 1) (0 : Fin 1))) (v13 (ix2 r k)) := by
  have e2 : broadcastTo S4000x16 v2 broadcasts_S1x16_S4000x16 (ix2 r k) = v2 (ix2 (0 : Fin 1) k) :=
    broadcastTo_1b_ab_apply v2 _ r k
  have e6 : broadcastTo S4000x16 v6 broadcasts_S1x1_S4000x16 (ix2 r k) = v6 (ix2 (0 : Fin 1) (0 : Fin 1)) :=
    broadcastTo_11_ab_apply v6 _ r k
  unfold k2_pay1 featMul prelu
  simp only [select_apply, cmpf_apply, broadcast_apply, mulf_at, addf_at, shapeCast_self, e2, e6]

/-! ### The matrix product's index facts: the left index takes the output row and the contraction position, the right
    index the contraction position and the output column -/

theorem lhs_dot_0 (i : S4000x10.Idx) (q : dot_S4000x16_S16x10_S4000x10_1_0_0_1_n_n.contr.Idx) :
    (dot_S4000x16_S16x10_S4000x10_1_0_0_1_n_n.lhsIdx i q 0).val = (i 0).val := by
  unfold DotDims.lhsIdx
  rw [dif_neg (show ¬(0 : Fin S4000x16.rank) ∈ dot_S4000x16_S16x10_S4000x10_1_0_0_1_n_n.lhsBatch by decide), dif_pos (show (0 : Fin S4000x16.rank) ∈ dot_S4000x16_S16x10_S4000x10_1_0_0_1_n_n.lhsNonContracting by decide)]
  rfl
theorem lhs_dot_1 (i : S4000x10.Idx) (q : dot_S4000x16_S16x10_S4000x10_1_0_0_1_n_n.contr.Idx) :
    (dot_S4000x16_S16x10_S4000x10_1_0_0_1_n_n.lhsIdx i q 1).val = (q ⟨0, by decide⟩).val :=
  dot_S4000x16_S16x10_S4000x10_1_0_0_1_n_n.lhsIdx_val_of_single rfl i q
theorem rhs_dot_0 (i : S4000x10.Idx) (q : dot_S4000x16_S16x10_S4000x10_1_0_0_1_n_n.contr.Idx) :
    (dot_S4000x16_S16x10_S4000x10_1_0_0_1_n_n.rhsIdx i q 0).val = (q ⟨0, by decide⟩).val :=
  dot_S4000x16_S16x10_S4000x10_1_0_0_1_n_n.rhsIdx_val_of_single rfl i q
theorem rhs_dot_1 (i : S4000x10.Idx) (q : dot_S4000x16_S16x10_S4000x10_1_0_0_1_n_n.contr.Idx) :
    (dot_S4000x16_S16x10_S4000x10_1_0_0_1_n_n.rhsIdx i q 1).val = (i 1).val := by
  unfold DotDims.rhsIdx
  rw [dif_neg (show ¬(1 : Fin S16x10.rank) ∈ dot_S4000x16_S16x10_S4000x10_1_0_0_1_n_n.rhsBatch by decide), dif_pos (show (1 : Fin S16x10.rank) ∈ dot_S4000x16_S16x10_S4000x10_1_0_0_1_n_n.rhsNonContracting by decide)]
  rfl

set_option maxHeartbeats 400000 in
/-- The second payload at `(r, q)` of a block: the first payload's row `r` against column `q` of the weights, plus the
    bias row at `q`. The product goes into a zero accumulator, and a change of float format is the identity here. -/
theorem pay2_at (v0 : Vec Ideal S4000x16 .f32) (v2 : Vec Ideal S1x16 .f32) (v6 : Vec Ideal S1x1 .f32)
    (v13 : Vec Ideal S4000x16 .f32) (v22 : Vec Ideal S16x10 .f32) (v25 : Vec Ideal S1x10 .f32) (r : Fin 4000) (q : Fin 10) :
    k2_pay2 v0 v2 v6 v13 v22 v25 (ix2 r q)
      = (∑ k : Fin 16, k2_pay1 v0 v2 v6 v13 (ix2 r k) * v22 (ix2 k q)) + v25 (ix2 (0 : Fin 1) q) := by
  have e25 : broadcastTo S4000x10 v25 broadcasts_S1x10_S4000x10 (ix2 r q) = v25 (ix2 (0 : Fin 1) q) :=
    broadcastTo_1b_ab_apply v25 _ r q
  have em := Cert.DenseLayer.matmul_rows_cols dot_S4000x16_S16x10_S4000x10_1_0_0_1_n_n rfl rfl
    lhs_dot_0 lhs_dot_1 rhs_dot_0 rhs_dot_1 none
    (truncf .bf16 (k2_pay1 v0 v2 v6 v13) bitsLt_bf16_f32) (truncf .bf16 v22 bitsLt_bf16_f32) r q
  unfold k2_pay2
  simp only [addf_apply, shapeCast_self, e25]
  refine congrArg (· + v25 (ix2 (0 : Fin 1) q)) ?_
  exact em

section Kernel

/-! ## From blocks to arrays

The grid has 25 points. At point `t` the aggregate, the draw and both outputs are at their blocks of rows
`4000·t … 4000·t + 3999` (all columns); the bias rows, the slope and the weights are whole at every point. -/

theorem hz : (![0, 0] : Fin 2 → Nat) = fun _ => 0 := funext fun a => by fin_cases a <;> rfl

/-- The windows' index maps, decided over the 25 points: a row-blocked window is at block `(t, 0)`, a whole one at `(0, 0)`. -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

variable (V : (c : Dev nD) → (b : Ref sig .tc) → Buf (Elt Ideal) ((c : Thread nD τ).loc b))

/-- The aggregate's block at point `t`, entry `(r, k)`, is the array's entry `(4000·t + r, k)`. -/
theorem blk0_at (c : Dev nD) (t : Fin cfg2.N) (r : Fin 4000) (k : Fin 16) (p : Fin 100000) (hp : p.val = 4000 * t.val + r.val) :
    (iblk2 V c 0 t : Vec Ideal S4000x16 .f32) (ix2 r k) = (V c main_v59 : S100000x16.Idx → Ideal .f32) (ix2 p k) := by
  obtain ⟨⟨e0, e1⟩, -⟩ := idx_facts t
  have h : ((cfg2.win 0).blk t).view.emb (ix2 r k) = ix2 p k := by
    funext a; apply Fin.ext
    match a with
    | ⟨0, _⟩ => show win2_0.index t (0 : Fin 2) * 4000 + 1 * r.val = p.val; rw [e0, hp]; omega
    | ⟨1, _⟩ => show win2_0.index t (1 : Fin 2) * 16 + 1 * k.val = k.val; rw [e1]; omega
  show V c main_v59 (((cfg2.win 0).blk t).view.emb (ix2 r k)) = V c main_v59 (ix2 p k)
  rw [h]

/-- The draw's block likewise. -/
theorem blk3_at (c : Dev nD) (t : Fin cfg2.N) (r : Fin 4000) (k : Fin 16) (p : Fin 100000) (hp : p.val = 4000 * t.val + r.val) :
    (iblk2 V c 3 t : Vec Ideal S4000x16 .f32) (ix2 r k) = (V c main_arg10 : S100000x16.Idx → Ideal .f32) (ix2 p k) := by
  obtain ⟨-, -, -, ⟨e0, e1⟩, -⟩ := idx_facts t
  have h : ((cfg2.win 3).blk t).view.emb (ix2 r k) = ix2 p k := by
    funext a; apply Fin.ext
    match a with
    | ⟨0, _⟩ => show win2_3.index t (0 : Fin 2) * 4000 + 1 * r.val = p.val; rw [e0, hp]; omega
    | ⟨1, _⟩ => show win2_3.index t (1 : Fin 2) * 16 + 1 * k.val = k.val; rw [e1]; omega
  show V c main_arg10 (((cfg2.win 3).blk t).view.emb (ix2 r k)) = V c main_arg10 (ix2 p k)
  rw [h]

/-- The bias row's block is the row. -/
theorem blk1_at (c : Dev nD) (t : Fin cfg2.N) (k : Fin 16) :
    (iblk2 V c 1 t : Vec Ideal S1x16 .f32) (ix2 (0 : Fin 1) k) = (V c main_v60 : S1x16.Idx → Ideal .f32) (ix2 (0 : Fin 1) k) := by
  obtain ⟨-, ⟨e0, e1⟩, -⟩ := idx_facts t
  have h : ((cfg2.win 1).blk t).view.emb (ix2 (0 : Fin 1) k) = ix2 (0 : Fin 1) k := by
    funext a; apply Fin.ext
    match a with
    | ⟨0, _⟩ => show win2_1.index t (0 : Fin 2) * 1 + 1 * 0 = 0; rw [e0]
    | ⟨1, _⟩ => show win2_1.index t (1 : Fin 2) * 16 + 1 * k.val = k.val; rw [e1]; omega
  show V c main_v60 (((cfg2.win 1).blk t).view.emb (ix2 (0 : Fin 1) k)) = V c main_v60 (ix2 (0 : Fin 1) k)
  rw [h]

/-- The slope's block is the slope. -/
theorem blk2_at (c : Dev nD) (t : Fin cfg2.N) :
    (iblk2 V c 2 t : Vec Ideal S1x1 .f32) (ix2 (0 : Fin 1) (0 : Fin 1)) = (V c main_v61 : S1x1.Idx → Ideal .f32) (ix2 (0 : Fin 1) (0 : Fin 1)) := by
  obtain ⟨-, -, ⟨e0, e1⟩, -⟩ := idx_facts t
  have h : ((cfg2.win 2).blk t).view.emb (ix2 (0 : Fin 1) (0 : Fin 1)) = ix2 (0 : Fin 1) (0 : Fin 1) := by
    funext a; apply Fin.ext
    match a with
    | ⟨0, _⟩ => show win2_2.index t (0 : Fin 2) * 1 + 1 * 0 = 0; rw [e0]
    | ⟨1, _⟩ => show win2_2.index t (1 : Fin 2) * 1 + 1 * 0 = 0; rw [e1]
  show V c main_v61 (((cfg2.win 2).blk t).view.emb (ix2 (0 : Fin 1) (0 : Fin 1))) = V c main_v61 (ix2 (0 : Fin 1) (0 : Fin 1))
  rw [h]

/-- The weights' block is the weights. -/
theorem blk4_at (c : Dev nD) (t : Fin cfg2.N) (k : Fin 16) (q : Fin 10) :
    (iblk2 V c 4 t : Vec Ideal S16x10 .f32) (ix2 k q) = (V c main_arg7 : S16x10.Idx → Ideal .f32) (ix2 k q) := by
  obtain ⟨-, -, -, -, ⟨e0, e1⟩, -⟩ := idx_facts t
  have h : ((cfg2.win 4).blk t).view.emb (ix2 k q) = ix2 k q := by
    funext a; apply Fin.ext
    match a with
    | ⟨0, _⟩ => show win2_4.index t (0 : Fin 2) * 16 + 1 * k.val = k.val; rw [e0]; omega
    | ⟨1, _⟩ => show win2_4.index t (1 : Fin 2) * 10 + 1 * q.val = q.val; rw [e1]; omega
  show V c main_arg7 (((cfg2.win 4).blk t).view.emb (ix2 k q)) = V c main_arg7 (ix2 k q)
  rw [h]

/-- The second bias row's block is the row. -/
theorem blk5_at (c : Dev nD) (t : Fin cfg2.N) (q : Fin 10) :
    (iblk2 V c 5 t : Vec Ideal S1x10 .f32) (ix2 (0 : Fin 1) q) = (V c main_v62 : S1x10.Idx → Ideal .f32) (ix2 (0 : Fin 1) q) := by
  obtain ⟨-, -, -, -, -, ⟨e0, e1⟩, -⟩ := idx_facts t
  have h : ((cfg2.win 5).blk t).view.emb (ix2 (0 : Fin 1) q) = ix2 (0 : Fin 1) q := by
    funext a; apply Fin.ext
    match a with
    | ⟨0, _⟩ => show win2_5.index t (0 : Fin 2) * 1 + 1 * 0 = 0; rw [e0]
    | ⟨1, _⟩ => show win2_5.index t (1 : Fin 2) * 10 + 1 * q.val = q.val; rw [e1]; omega
  show V c main_v62 (((cfg2.win 5).blk t).view.emb (ix2 (0 : Fin 1) q)) = V c main_v62 (ix2 (0 : Fin 1) q)
  rw [h]

/-- The first payload of the blocks at point `t`, at `(r, k)`: the features' entry `(4000·t + r, k)`. -/
theorem pay1_blk (c : Dev nD) (t : Fin cfg2.N) (r : Fin 4000) (k : Fin 16) (p : Fin 100000) (hp : p.val = 4000 * t.val + r.val) :
    k2_pay1 (iblk2 V c 0 t) (iblk2 V c 1 t) (iblk2 V c 2 t) (iblk2 V c 3 t) (ix2 r k)
      = featArr (V c main_v59) (V c main_v60) (V c main_v61) (V c main_arg10) (ix2 p k) := by
  refine (pay1_at (iblk2 V c 0 t) (iblk2 V c 1 t) (iblk2 V c 2 t) (iblk2 V c 3 t) r k).trans ?_
  exact congr (congr (congr (congrArg featMul (blk0_at V c t r k p hp)) (blk1_at V c t k)) (blk2_at V c t)) (blk3_at V c t r k p hp)

/-- The second payload of the blocks at point `t`, at `(r, q)`: the logits' entry `(4000·t + r, q)`. -/
theorem pay2_blk (c : Dev nD) (t : Fin cfg2.N) (r : Fin 4000) (q : Fin 10) (p : Fin 100000) (hp : p.val = 4000 * t.val + r.val) :
    k2_pay2 (iblk2 V c 0 t) (iblk2 V c 1 t) (iblk2 V c 2 t) (iblk2 V c 3 t) (iblk2 V c 4 t) (iblk2 V c 5 t) (ix2 r q)
      = logitArr (featArr (V c main_v59) (V c main_v60) (V c main_v61) (V c main_arg10)) (V c main_arg7) (V c main_v62) (ix2 p q) := by
  refine (pay2_at (iblk2 V c 0 t) (iblk2 V c 1 t) (iblk2 V c 2 t) (iblk2 V c 3 t) (iblk2 V c 4 t) (iblk2 V c 5 t) r q).trans ?_
  exact congrArg₂ (fun a b : EReal => a + b)
    (Finset.sum_congr rfl fun k _ => congrArg₂ (fun a b : EReal => a * b) (pay1_blk V c t r k p hp) (blk4_at V c t k q))
    (blk5_at V c t q)

/-- Row `4000·t + r` is a row of the array. -/
theorem row_lt (t : Fin cfg2.N) (r : Fin 4000) : 4000 * t.val + r.val < 100000 := by
  have ht : t.val < 25 := t.isLt.trans_eq N_2
  have hr := r.isLt
  omega

/-- WHAT POINT `t` WRITES BACK to the features' array is block `t` of the features. -/
theorem flushed6_eq (c : Dev nD) (t : Fin cfg2.N) :
    (dat2 V c).flushed 6 t = ((cfg2.win 6).blk t).view.read (Elt Ideal)
      (featArr (V c main_v59) (V c main_v60) (V c main_v61) (V c main_arg10)) := by
  show (cfg2.win 6).cut (grid2.coords t) ((dat2 V c).after 6 t) = _
  rw [after2_6]
  unfold out2_6
  rw [View.canon_unit_zero hz]
  simp only [View.ld_unit_zero (S := S4000x16) hz, View.ld_unit_zero (S := S1x16) hz, View.ld_unit_zero (S := S1x1) hz]
  funext j
  obtain ⟨r, k, rfl⟩ : ∃ (r : Fin 4000) (k : Fin 16), j = ix2 r k := ⟨j 0, j 1, eq_ix2 j⟩
  obtain ⟨-, -, -, -, -, -, ⟨e0, e1⟩, -⟩ := idx_facts t
  have h : ((cfg2.win 6).blk t).view.emb (ix2 r k) = ix2 (⟨4000 * t.val + r.val, row_lt t r⟩ : Fin 100000) k := by
    funext a; apply Fin.ext
    match a with
    | ⟨0, _⟩ => show win2_6.index t (0 : Fin 2) * 4000 + 1 * r.val = 4000 * t.val + r.val; rw [e0]; omega
    | ⟨1, _⟩ => show win2_6.index t (1 : Fin 2) * 16 + 1 * k.val = k.val; rw [e1]; omega
  show k2_pay1 (iblk2 V c 0 t) (iblk2 V c 1 t) (iblk2 V c 2 t) (iblk2 V c 3 t) (ix2 r k)
    = featArr (V c main_v59) (V c main_v60) (V c main_v61) (V c main_arg10) (((cfg2.win 6).blk t).view.emb (ix2 r k))
  rw [h]
  exact pay1_blk V c t r k _ rfl

/-- WHAT POINT `t` WRITES BACK to the logits' array is block `t` of the logits. -/
theorem flushed7_eq (c : Dev nD) (t : Fin cfg2.N) :
    (dat2 V c).flushed 7 t = ((cfg2.win 7).blk t).view.read (Elt Ideal)
      (logitArr (featArr (V c main_v59) (V c main_v60) (V c main_v61) (V c main_arg10)) (V c main_arg7) (V c main_v62)) := by
  show (cfg2.win 7).cut (grid2.coords t) ((dat2 V c).after 7 t) = _
  rw [after2_7]
  unfold out2_7
  rw [View.canon_unit_zero hz]
  simp only [View.ld_unit_zero (S := S4000x16) hz, View.ld_unit_zero (S := S1x16) hz, View.ld_unit_zero (S := S1x1) hz,
    View.ld_unit_zero (S := S16x10) hz, View.ld_unit_zero (S := S1x10) hz]
  funext j
  obtain ⟨r, q, rfl⟩ : ∃ (r : Fin 4000) (q : Fin 10), j = ix2 r q := ⟨j 0, j 1, eq_ix2 j⟩
  obtain ⟨-, -, -, -, -, -, -, ⟨e0, e1⟩⟩ := idx_facts t
  have h : ((cfg2.win 7).blk t).view.emb (ix2 r q) = ix2 (⟨4000 * t.val + r.val, row_lt t r⟩ : Fin 100000) q := by
    funext a; apply Fin.ext
    match a with
    | ⟨0, _⟩ => show win2_7.index t (0 : Fin 2) * 4000 + 1 * r.val = 4000 * t.val + r.val; rw [e0]; omega
    | ⟨1, _⟩ => show win2_7.index t (1 : Fin 2) * 10 + 1 * q.val = q.val; rw [e1]; omega
  show k2_pay2 (iblk2 V c 0 t) (iblk2 V c 1 t) (iblk2 V c 2 t) (iblk2 V c 3 t) (iblk2 V c 4 t) (iblk2 V c 5 t) (ix2 r q)
    = logitArr (featArr (V c main_v59) (V c main_v60) (V c main_v61) (V c main_arg10)) (V c main_arg7) (V c main_v62)
        (((cfg2.win 7).blk t).view.emb (ix2 r q))
  rw [h]
  exact pay2_blk V c t r q _ rfl

/-- An index of the features' array is in point `t`'s block iff each coordinate is in the block's range on its axis. -/
theorem mem_blk6 (t : Fin cfg2.N) (i : S100000x16.Idx) :
    i ∈ ((cfg2.win 6).blk t).view.set ↔ ∀ a : Fin 2, win2_6.index t a * S4000x16.size a ≤ (i a).val ∧ (i a).val < win2_6.index t a * S4000x16.size a + S4000x16.size a := by
  show i ∈ ((View.whole main_v63_0).slice (win2_6.rect t)).set ↔ _
  rw [View.set_slice_whole, Rect.mem_set_unit]
  exact Iff.rfl

/-- The same for the logits' array. -/
theorem mem_blk7 (t : Fin cfg2.N) (i : S100000x10.Idx) :
    i ∈ ((cfg2.win 7).blk t).view.set ↔ ∀ a : Fin 2, win2_7.index t a * S4000x10.size a ≤ (i a).val ∧ (i a).val < win2_7.index t a * S4000x10.size a + S4000x10.size a := by
  show i ∈ ((View.whole main_v63_1).slice (win2_7.rect t)).set ↔ _
  rw [View.set_slice_whole, Rect.mem_set_unit]
  exact Iff.rfl

/-- Every entry of the features' array is in the block of point `row / 4000`, which is written back. -/
theorem cover6 (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  obtain ⟨t, ht⟩ : ∃ t : Fin cfg2.N, t.val = (i 0).val / 4000 :=
    ⟨⟨(i 0).val / 4000, (show (i 0).val / 4000 < 25 by omega).trans_eq N_2.symm⟩, rfl⟩
  obtain ⟨-, -, -, -, -, -, ⟨e0, e1⟩, -⟩ := idx_facts t
  refine ⟨t, flush2_6 t, ?_⟩
  rw [mem_blk6]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 16 ≤ (i 1).val ∧ (i 1).val < win2_6.index t (1 : Fin 2) * 16 + 16; rw [e1]; omega

/-- Every entry of the logits' array likewise. -/
theorem cover7 (i : S100000x10.Idx) : ∃ t : Fin cfg2.N, (cfg2.win 7).flush t = true ∧ i ∈ ((cfg2.win 7).blk t).view.set := by
  have hi0 : (i 0).val < 100000 := (i 0).isLt
  have hi1 : (i 1).val < 10 := (i 1).isLt
  obtain ⟨t, ht⟩ : ∃ t : Fin cfg2.N, t.val = (i 0).val / 4000 :=
    ⟨⟨(i 0).val / 4000, (show (i 0).val / 4000 < 25 by omega).trans_eq N_2.symm⟩, rfl⟩
  obtain ⟨-, -, -, -, -, -, -, ⟨e0, e1⟩⟩ := idx_facts t
  refine ⟨t, flush2_7 t, ?_⟩
  rw [mem_blk7]
  intro a
  match a with
  | ⟨0, _⟩ => show win2_7.index t (0 : Fin 2) * 4000 ≤ (i 0).val ∧ (i 0).val < win2_7.index t (0 : Fin 2) * 4000 + 4000; rw [e0, ht]; omega
  | ⟨1, _⟩ => show win2_7.index t (1 : Fin 2) * 10 ≤ (i 1).val ∧ (i 1).val < win2_7.index t (1 : Fin 2) * 10 + 10; rw [e1]; omega

/-- THE FEATURES' ARRAY after the region: the features of the arrays the region found. -/
theorem kernel_feat (c : Dev nD) :
    (dat2 V c).arrAt 6 cfg2.N = featArr (V c main_v59) (V c main_v60) (V c main_v61) (V c main_arg10) :=
  (dat2 V c).arrAt_eq_of_cover 6 _ (fun t _ => flushed6_eq V c t) cover6

/-- THE LOGITS' ARRAY after the region: the logits of the arrays the region found. -/
theorem kernel_logits (c : Dev nD) :
    (dat2 V c).arrAt 7 cfg2.N
      = logitArr (featArr (V c main_v59) (V c main_v60) (V c main_v61) (V c main_arg10)) (V c main_arg7) (V c main_v62) :=
  (dat2 V c).arrAt_eq_of_cover 7 _ (fun t _ => flushed7_eq V c t) cover7

end Kernel

/-! ## The reference's two results at an entry

The reference holds the bias as a vector of 16 entries and the slope as a scalar; its aggregate `val_main_v70` is
never opened. -/

open Cert.ReferenceIdeal.ReadP

/-- The reference's features as an array of the aggregate, the bias vector, the slope and the draw. -/
def featArrR (A : S100000x16.Idx → Ideal .f32) (b : S16.Idx → Ideal .f32) (a : S_.Idx → Ideal .f32)
    (U : S100000x16.Idx → Ideal .f32) : S100000x16.Idx → Ideal .f32 :=
  fun i => featDiv (A i) (b (ix1 (i 1))) (a ix0) (U i)

/-- The reference's logits as an array of the features, the weights and the bias vector. -/
def logitArrR (Fe : S100000x16.Idx → Ideal .f32) (W : S16x10.Idx → Ideal .f32) (b : S10.Idx → Ideal .f32) :
    S100000x10.Idx → Ideal .f32 :=
  fun i => (∑ k : Fin 16, Fe (ix2 (i 0) k) * W (ix2 k (i 1))) + b (ix1 (i 1))

set_option maxHeartbeats 400000 in
/-- The reference's features: its stages read at an entry, down to the aggregate. -/
theorem ref_feat (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (x10 : (⟨Cert.ReferenceIdeal.S100000x16, .f32⟩ : BufTy).Contents (Elt Ideal)) :
    val_main_v83 (F := Ideal) x0 x1 x2 x3 x4 x5 x6 x9 x10
      = featArrR (val_main_v70 (F := Ideal) x0 x1 x2 x3 x4 x6 x9) x5 x6 x10 := by
  funext i
  obtain ⟨p, k, rfl⟩ : ∃ (p : Fin 100000) (k : Fin 16), i = ix2 p k := ⟨i 0, i 1, eq_ix2 i⟩
  have e5 : idx_main_v71 (idx_main_v72 (ix2 p k)) = ix1 k := funext fun a => Fin.ext (by match a with | ⟨0, _⟩ => rfl)
  have e6 : idx_main_v76 (ix2 p k) = ix0 := funext fun a => a.elim0
  rw [val_main_v83_apply, val_main_v80_apply, val_main_v82_apply, val_main_call4_v1_apply, val_main_call4_v0_apply,
    val_main_cst_19_apply, val_main_v79_apply, val_main_cst_17_apply, val_main_v81_apply, val_main_cst_18_apply,
    val_main_v78_apply, val_main_v75_apply, val_main_v77_apply, val_main_v74_apply, val_main_cst_16_apply,
    val_main_v76_apply, val_main_v73_apply, val_main_v72_apply, val_main_v71_apply, e5, e6]
  generalize val_main_v70 (F := Ideal) x0 x1 x2 x3 x4 x6 x9 = A
  rfl

set_option maxHeartbeats 400000 in
/-- The reference's logits: the features' row against the weights' column, plus the bias. -/
theorem ref_logits (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal))
    (x6 : (⟨Cert.ReferenceIdeal.S_, .f32⟩ : BufTy).Contents (Elt Ideal))
    (x7 : (⟨Cert.ReferenceIdeal.S16x10, .f32⟩ : BufTy).Contents (Elt Ideal))
    (x8 : (⟨Cert.ReferenceIdeal.S10, .f32⟩ : BufTy).Contents (Elt Ideal))
    (x9 : (⟨Cert.ReferenceIdeal.S100000x128, .f32⟩ : BufTy).Contents (Elt Ideal))
    (x10 : (⟨Cert.ReferenceIdeal.S100000x16, .f32⟩ : BufTy).Contents (Elt Ideal)) :
    val_main_v87 (F := Ideal) x0 x1 x2 x3 x4 x5 x6 x7 x8 x9 x10
      = logitArrR (val_main_v83 (F := Ideal) x0 x1 x2 x3 x4 x5 x6 x9 x10) x7 x8 := by
  funext i
  obtain ⟨p, q, rfl⟩ : ∃ (p : Fin 100000) (q : Fin 10), i = ix2 p q := ⟨i 0, i 1, eq_ix2 i⟩
  have el : ∀ k : Fin 16, lidx_main_v84 (ix2 p q) k = ix2 p k := fun k =>
    funext fun a => Fin.ext (by match a with | ⟨0, _⟩ => rfl | ⟨1, _⟩ => rfl)
  have er : ∀ k : Fin 16, ridx_main_v84 (ix2 p q) k = ix2 k q := fun k =>
    funext fun a => Fin.ext (by match a with | ⟨0, _⟩ => rfl | ⟨1, _⟩ => rfl)
  have eb : idx_main_v85 (idx_main_v86 (ix2 p q)) = ix1 q := funext fun a => Fin.ext (by match a with | ⟨0, _⟩ => rfl)
  rw [val_main_v87_apply, val_main_v84_apply, val_main_v86_apply, val_main_v85_apply, eb]
  generalize val_main_v83 (F := Ideal) x0 x1 x2 x3 x4 x5 x6 x9 x10 = Fe
  show (∑ k : Fin 16, Fe (lidx_main_v84 (ix2 p q) k) * x7 (ridx_main_v84 (ix2 p q) k)) + x8 (ix1 q)
    = (∑ k : Fin 16, Fe (ix2 p k) * x7 (ix2 k q)) + x8 (ix1 q)
  simp only [el, er]

/-! ## The two programs' results agree -/

/-- The features' array after the region is the reference's features, given that the region finds the reference's
    aggregate, the bias as a row, the slope as a `[1, 1]` array, and the draw. -/
theorem feat_eq (V : (c : Dev nD) → (b : Ref sig .tc) → Buf (Elt Ideal) ((c : Thread nD τ).loc b)) (c : Dev nD)
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (x10 : (⟨Cert.ReferenceIdeal.S100000x16, .f32⟩ : BufTy).Contents (Elt Ideal))
    (h59 : V c main_v59 = val_main_v70 (F := Ideal) x0 x1 x2 x3 x4 x6 x9)
    (h60 : ∀ k : Fin 16, V c main_v60 (ix2 0 k) = x5 (ix1 k))
    (h61 : V c main_v61 (ix2 0 0) = x6 ix0)
    (h10 : V c main_arg10 = x10) :
    (dat2 V c).arrAt 6 cfg2.N = val_main_v83 (F := Ideal) x0 x1 x2 x3 x4 x5 x6 x9 x10 := by
  refine (kernel_feat V c).trans ?_
  refine Eq.trans ?_ (ref_feat x0 x1 x2 x3 x4 x5 x6 x9 x10).symm
  generalize val_main_v70 (F := Ideal) x0 x1 x2 x3 x4 x6 x9 = A at h59 ⊢
  funext i
  obtain ⟨p, k, rfl⟩ : ∃ (p : Fin 100000) (k : Fin 16), i = ix2 p k := ⟨i 0, i 1, eq_ix2 i⟩
  show featMul (V c main_v59 (ix2 p k)) (V c main_v60 (ix2 (0 : Fin 1) k)) (V c main_v61 (ix2 (0 : Fin 1) (0 : Fin 1))) (V c main_arg10 (ix2 p k))
    = featDiv (A (ix2 p k)) (x5 (ix1 k)) (x6 ix0) (x10 (ix2 p k))
  exact (congr (congr (congr (congrArg featMul (congrFun h59 (ix2 p k))) (h60 k)) h61) (congrFun h10 (ix2 p k))).trans
    (featMul_eq_featDiv _ _ _ _)

/-- The logits' array after the region is the reference's logits, given also that the region finds the weights and the
    second bias as a row. -/
theorem logits_eq (V : (c : Dev nD) → (b : Ref sig .tc) → Buf (Elt Ideal) ((c : Thread nD τ).loc b)) (c : Dev nD)
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (x10 : (⟨Cert.ReferenceIdeal.S100000x16, .f32⟩ : BufTy).Contents (Elt Ideal))
    (h59 : V c main_v59 = val_main_v70 (F := Ideal) x0 x1 x2 x3 x4 x6 x9)
    (h60 : ∀ k : Fin 16, V c main_v60 (ix2 0 k) = x5 (ix1 k))
    (h61 : V c main_v61 (ix2 0 0) = x6 ix0)
    (h10 : V c main_arg10 = x10)
    (x7 : (⟨Cert.ReferenceIdeal.S16x10, .f32⟩ : BufTy).Contents (Elt Ideal)) (x8 : (⟨Cert.ReferenceIdeal.S10, .f32⟩ : BufTy).Contents (Elt Ideal))
    (h7 : V c main_arg7 = x7) (h62 : ∀ k : Fin 10, V c main_v62 (ix2 0 k) = x8 (ix1 k)) :
    (dat2 V c).arrAt 7 cfg2.N = val_main_v87 (F := Ideal) x0 x1 x2 x3 x4 x5 x6 x7 x8 x9 x10 := by
  have hF : featArr (V c main_v59) (V c main_v60) (V c main_v61) (V c main_arg10)
      = val_main_v83 (F := Ideal) x0 x1 x2 x3 x4 x5 x6 x9 x10 :=
    (kernel_feat V c).symm.trans (feat_eq V c x0 x1 x2 x3 x4 x5 x6 x9 x10 h59 h60 h61 h10)
  refine (kernel_logits V c).trans ?_
  refine Eq.trans ?_ (ref_logits x0 x1 x2 x3 x4 x5 x6 x7 x8 x9 x10).symm
  rw [hF]
  generalize val_main_v83 (F := Ideal) x0 x1 x2 x3 x4 x5 x6 x9 x10 = Fe
  funext i
  obtain ⟨p, q, rfl⟩ : ∃ (p : Fin 100000) (q : Fin 10), i = ix2 p q := ⟨i 0, i 1, eq_ix2 i⟩
  show (∑ k : Fin 16, Fe (ix2 p k) * V c main_arg7 (ix2 k q)) + V c main_v62 (ix2 (0 : Fin 1) q)
    = (∑ k : Fin 16, Fe (ix2 p k) * x7 (ix2 k q)) + x8 (ix1 q)
  exact congrArg₂ (fun a b : EReal => a + b)
    (Finset.sum_congr rfl fun k _ => congrArg (fun w : EReal => Fe (ix2 p k) * w) (congrFun h7 (ix2 k q)))
    (h62 q)

end Cert.Gcn.Region2

end
-- ==== Proof.HostAgg.lean ====
/-
  The two neighbourhood sums of the graph convolution, read through without being opened.

  Each layer of the network ends in the same aggregation: for every edge e, row src(e) of the layer's feature
  array is gathered, multiplied by the edge's weight norm(e), and the weighted rows are added, destination by
  destination, into an array of zeros: agg(v) = ∑ over the edges e with dst(e) = v of norm(e) · h(src(e)). Before
  the gather a negative source index is wrapped (the number of nodes is added to it).

  The kernel's program does this on the host, between its pipelined calls, by exactly the operations the reference
  uses, in the same order and with the same dimension numbers: a broadcast of the weights to a column and then across
  the feature axis, the wrap of the source indices (compare with 0, add 100000, select), the gather, the product, and
  the scatter-add into zeros at the destination indices. So nothing about a gather or a scatter-add is needed
  beyond congruence: once the four arrays the stretch starts from — the source indices, the destination indices, the edge
  weights and the layer's features — are known to be the reference's, the stretch's result is the reference's,
  term for term. The first layer's stretch works on 128 feature columns, the second's on 16.
-/
import proofs.«150170_j4174708212139_1_alg».proof.Proof.Gen.KernelIdeal.Frame
import proofs.«150170_j4174708212139_1_alg».proof.Proof.RefRead

set_option maxRecDepth 16384

noncomputable section

namespace Cert.Gcn.HostAgg

open Idealize.ShloMosaic Idealize.ShloMosaic.TcCoe Idealize.SL.Sem

/-! ## The dimension numbers of the two programs are the same records

Both programs carry their own copy of each gather's and each scatter's dimension numbers; the copies have the same
fields (the well-formedness field is a proof). -/

theorem gather128_eq :
    Cert.KernelIdeal.gather_S100000x128_S1700000x1_S1700000x128_1_0_n_n_0_1_1128
      = Cert.ReferenceIdeal.gather_S100000x128_S1700000x1_S1700000x128_1_0_n_n_0_1_1128 := rfl

theorem scatter128_eq :
    Cert.KernelIdeal.scatter_S100000x128_S1700000x1_S1700000x128_1_0_0_1
      = Cert.ReferenceIdeal.scatter_S100000x128_S1700000x1_S1700000x128_1_0_0_1 := rfl

theorem gather16_eq :
    Cert.KernelIdeal.gather_S100000x16_S1700000x1_S1700000x16_1_0_n_n_0_1_116
      = Cert.ReferenceIdeal.gather_S100000x16_S1700000x1_S1700000x16_1_0_n_n_0_1_116 := rfl

theorem scatter16_eq :
    Cert.KernelIdeal.scatter_S100000x16_S1700000x1_S1700000x16_1_0_0_1
      = Cert.ReferenceIdeal.scatter_S100000x16_S1700000x1_S1700000x16_1_0_0_1 := rfl

/-! ## One stretch from any starting contents

The stretch is read at its scatter-add's result buffer from ANY contents `W` of the buffers: the value there is the
stretch's operations composed over `W` at the four buffers it starts from. With those four the reference's arrays,
that composition is the reference's aggregation stage unfolded down to the same four arrays. -/

set_option maxHeartbeats 400000 in
/-- The first layer's aggregation (128 feature columns): agg1 = segment_sum(norm · h1[src], dst). -/
theorem stretch1 (W : Valuation Cert.KernelIdeal.τ Cert.KernelIdeal.sig (Elt Ideal))
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (h3 : W (Proc.devRef .tc Cert.KernelIdeal.main_v3) = Cert.ReferenceIdeal.ReadP.val_main_v3 (F := Ideal) x1)
    (h6 : W (Proc.devRef .tc Cert.KernelIdeal.main_v6) = Cert.ReferenceIdeal.ReadP.val_main_v6 (F := Ideal) x1)
    (h29 : W (Proc.devRef .tc Cert.KernelIdeal.main_v29) = Cert.ReferenceIdeal.ReadP.val_main_v29 (F := Ideal) x1)
    (h30 : W (Proc.devRef .tc Cert.KernelIdeal.main_v30) = Cert.ReferenceIdeal.ReadP.val_main_v30 (F := Ideal) x0 x2) :
    StableHlo.after (Cert.KernelIdeal.Gen.hostOps1 (F := Ideal)) W (Proc.devRef .tc Cert.KernelIdeal.main_v43)
      = Cert.ReferenceIdeal.ReadP.val_main_v43 (F := Ideal) x0 x1 x2 := by
  after_results_simp
  rw [h30, h29, h3, h6, scatter128_eq, gather128_eq]
  unfold Cert.ReferenceIdeal.ReadP.val_main_v43 Cert.ReferenceIdeal.ReadP.val_main_v42 Cert.ReferenceIdeal.ReadP.val_main_v41
    Cert.ReferenceIdeal.ReadP.val_main_cst_8 Cert.ReferenceIdeal.ReadP.val_main_v40 Cert.ReferenceIdeal.ReadP.val_main_v39
    Cert.ReferenceIdeal.ReadP.val_main_v38 Cert.ReferenceIdeal.ReadP.val_main_v37 Cert.ReferenceIdeal.ReadP.val_main_v36
    Cert.ReferenceIdeal.ReadP.val_main_v35 Cert.ReferenceIdeal.ReadP.val_main_v34 Cert.ReferenceIdeal.ReadP.val_main_c_7
    Cert.ReferenceIdeal.ReadP.val_main_v33 Cert.ReferenceIdeal.ReadP.val_main_v32 Cert.ReferenceIdeal.ReadP.val_main_c_6
    Cert.ReferenceIdeal.ReadP.val_main_v31
  rfl

set_option maxHeartbeats 400000 in
/-- The second layer's aggregation (16 feature columns): agg2 = segment_sum(norm · h2[src], dst). -/
theorem stretch2 (W : Valuation Cert.KernelIdeal.τ Cert.KernelIdeal.sig (Elt Ideal))
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (h3 : W (Proc.devRef .tc Cert.KernelIdeal.main_v3) = Cert.ReferenceIdeal.ReadP.val_main_v3 (F := Ideal) x1)
    (h6 : W (Proc.devRef .tc Cert.KernelIdeal.main_v6) = Cert.ReferenceIdeal.ReadP.val_main_v6 (F := Ideal) x1)
    (h29 : W (Proc.devRef .tc Cert.KernelIdeal.main_v29) = Cert.ReferenceIdeal.ReadP.val_main_v29 (F := Ideal) x1)
    (h46 : W (Proc.devRef .tc Cert.KernelIdeal.main_v46)
      = Cert.ReferenceIdeal.ReadP.val_main_v57 (F := Ideal) x0 x1 x2 x3 x4 x6 x9) :
    StableHlo.after (Cert.KernelIdeal.Gen.hostOps2 (F := Ideal)) W (Proc.devRef .tc Cert.KernelIdeal.main_v59)
      = Cert.ReferenceIdeal.ReadP.val_main_v70 (F := Ideal) x0 x1 x2 x3 x4 x6 x9 := by
  after_results_simp
  rw [h46, h29, h3, h6, scatter16_eq, gather16_eq]
  unfold Cert.ReferenceIdeal.ReadP.val_main_v70 Cert.ReferenceIdeal.ReadP.val_main_v69 Cert.ReferenceIdeal.ReadP.val_main_v68
    Cert.ReferenceIdeal.ReadP.val_main_cst_15 Cert.ReferenceIdeal.ReadP.val_main_v67 Cert.ReferenceIdeal.ReadP.val_main_v66
    Cert.ReferenceIdeal.ReadP.val_main_v65 Cert.ReferenceIdeal.ReadP.val_main_v64 Cert.ReferenceIdeal.ReadP.val_main_v63
    Cert.ReferenceIdeal.ReadP.val_main_v62 Cert.ReferenceIdeal.ReadP.val_main_v61 Cert.ReferenceIdeal.ReadP.val_main_c_14
    Cert.ReferenceIdeal.ReadP.val_main_v60 Cert.ReferenceIdeal.ReadP.val_main_v59 Cert.ReferenceIdeal.ReadP.val_main_c_13
    Cert.ReferenceIdeal.ReadP.val_main_v58
  rfl

/-! ## The two stretches in the kernel's run

The contents the second (third) call is entered with are the first (second) call's exit contents run through the
stretch; read at the stretch's result buffer they are the lemmas above at those exit contents. -/

/-- What the second call finds in its first input array: the first layer's aggregation of the reference. -/
theorem agg1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (h3 : Cert.KernelIdeal.Gen.W4 m ρ c (Proc.devRef .tc Cert.KernelIdeal.main_v3)
      = Cert.ReferenceIdeal.ReadP.val_main_v3 (F := Ideal) x1)
    (h6 : Cert.KernelIdeal.Gen.W4 m ρ c (Proc.devRef .tc Cert.KernelIdeal.main_v6)
      = Cert.ReferenceIdeal.ReadP.val_main_v6 (F := Ideal) x1)
    (h29 : Cert.KernelIdeal.Gen.W4 m ρ c (Proc.devRef .tc Cert.KernelIdeal.main_v29)
      = Cert.ReferenceIdeal.ReadP.val_main_v29 (F := Ideal) x1)
    (h30 : Cert.KernelIdeal.Gen.W4 m ρ c (Proc.devRef .tc Cert.KernelIdeal.main_v30)
      = Cert.ReferenceIdeal.ReadP.val_main_v30 (F := Ideal) x0 x2) :
    Cert.KernelIdeal.Gen.V5 m ρ c Cert.KernelIdeal.main_v43
      = Cert.ReferenceIdeal.ReadP.val_main_v43 (F := Ideal) x0 x1 x2 :=
  stretch1 (Cert.KernelIdeal.Gen.W4 m ρ c) x0 x1 x2 h3 h6 h29 h30

/-- What the third call finds in its first input array: the second layer's aggregation of the reference. -/
theorem agg2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x6 : (⟨Cert.ReferenceIdeal.S_, .f32⟩ : BufTy).Contents (Elt Ideal))
    (x9 : (⟨Cert.ReferenceIdeal.S100000x128, .f32⟩ : BufTy).Contents (Elt Ideal))
    (h3 : Cert.KernelIdeal.Gen.W6 m ρ c (Proc.devRef .tc Cert.KernelIdeal.main_v3)
      = Cert.ReferenceIdeal.ReadP.val_main_v3 (F := Ideal) x1)
    (h6 : Cert.KernelIdeal.Gen.W6 m ρ c (Proc.devRef .tc Cert.KernelIdeal.main_v6)
      = Cert.ReferenceIdeal.ReadP.val_main_v6 (F := Ideal) x1)
    (h29 : Cert.KernelIdeal.Gen.W6 m ρ c (Proc.devRef .tc Cert.KernelIdeal.main_v29)
      = Cert.ReferenceIdeal.ReadP.val_main_v29 (F := Ideal) x1)
    (h46 : Cert.KernelIdeal.Gen.W6 m ρ c (Proc.devRef .tc Cert.KernelIdeal.main_v46)
      = Cert.ReferenceIdeal.ReadP.val_main_v57 (F := Ideal) x0 x1 x2 x3 x4 x6 x9) :
    Cert.KernelIdeal.Gen.V7 m ρ c Cert.KernelIdeal.main_v59
      = Cert.ReferenceIdeal.ReadP.val_main_v70 (F := Ideal) x0 x1 x2 x3 x4 x6 x9 :=
  stretch2 (Cert.KernelIdeal.Gen.W6 m ρ c) x0 x1 x2 x3 x4 x6 x9 h3 h6 h29 h46

end Cert.Gcn.HostAgg

end
-- ==== Proof.HostPrefix.lean ====
/-
  The source indices, the destination indices and the edge weights, as the host lines leave them, are the
  reference's stages of the launch contents of the edge list; and they stay so up to the third call.

  From the edge list alone the host lines before the first call compute: the source and the destination index
  vectors with the self loops appended (a row of the edge list, flattened, joined with the nodes' own indices); the
  in-degree of every node, a scatter-add of ones at the destinations; its reciprocal square root where the degree is
  positive and zero elsewhere; and the edge weights, that vector gathered at the two ends of every edge (a negative
  index wrapped once) and multiplied. The reference computes the same three vectors by the same operations in the same
  order, so stage by stage the two terms are the same operation applied to equal operands. The gathers, the
  scatter-add and the reciprocal square root are carried as they are and never opened.

  Nothing later writes the three buffers: a call changes only its own arrays, and a host operation only its own
  result. So at the first call's exit, and at the second call's exit, the three buffers still hold those stages.
-/
import proofs.«150170_j4174708212139_1_alg».proof.Proof.Gen.KernelIdeal.Frame
import proofs.«150170_j4174708212139_1_alg».proof.Proof.RefRead

set_option maxRecDepth 16384

noncomputable section

namespace Cert.Gcn.HostPrefix

open Cert.KernelIdeal Cert.KernelIdeal.Gen
open Idealize.ShloMosaic Idealize.ShloMosaic.TcCoe Idealize.ShloMosaic.Tactic
open Cert.ReferenceIdeal.ReadP (val_main_v3 val_main_v6 val_main_v12 val_main_v13 val_main_cst_2 val_main_v14
  val_main_v29)

/-- No operation of a literal stretch writes the given buffer: every operation writes one buffer, its result, and
    that is another reference. -/
local macro "no_write" : tactic => `(tactic|
  (simp only [hostOps0, hostOps0_1, hostOps0_2, hostOps1, hostOps2, List.Forall,
     StableHlo.nullary_writes, StableHlo.unary_writes, StableHlo.binary_writes, StableHlo.ternary_writes,
     StableHlo.reshape_writes, Finset.mem_singleton]
   repeat' apply And.intro
   all_goals exact StableHlo.devRef_ne_of_ne (by decide)))

/-- What is left of a stretch's fold at one buffer, operation by operation: an operation's result at its own buffer
    is its function of its operands' contents, and at another buffer what was there. -/
local macro "results_rw" : tactic => `(tactic|
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)))

/-- A buffer no operation of a stretch writes holds after the stretch what it held before. -/
theorem kept {ops : List (HloOp τ sig (Elt Ideal))} (W : Valuation τ sig (Elt Ideal)) (b : Ref sig .tc)
    (h : ops.Forall fun op => Proc.devRef .tc b ∉ op.writes) :
    StableHlo.after ops W (Proc.devRef .tc b) = W (Proc.devRef .tc b) :=
  StableHlo.after_of_forall_not_mem _ _ (List.forall_iff_forall_mem.mp h)

/-! ## The three stretches before the first call, from any contents `W` -/

section Stretches

variable (W : Valuation τ sig (Elt Ideal))

set_option maxHeartbeats 400000 in
/-- The source indices: row 0 of the edge list, flattened, with the nodes' own indices appended. -/
theorem src_after0 :
    StableHlo.after (hostOps0 (F := Ideal)) W (Proc.devRef .tc main_v3)
      = val_main_v3 (F := Ideal) (W (Proc.devRef .tc main_arg1)) := by
  dsimp only [hostOps0]
  after_results_simp
  results_rw
  rfl

set_option maxHeartbeats 400000 in
/-- The destination indices: row 1 of the edge list, flattened, with the nodes' own indices appended. -/
theorem dst_after0 :
    StableHlo.after (hostOps0 (F := Ideal)) W (Proc.devRef .tc main_v6)
      = val_main_v6 (F := Ideal) (W (Proc.devRef .tc main_arg1)) := by
  dsimp only [hostOps0]
  after_results_simp
  results_rw
  rfl

set_option maxHeartbeats 400000 in
/-- Where the in-degree (the scatter-add of ones at the destinations) is positive. -/
theorem degpos_after0 :
    StableHlo.after (hostOps0 (F := Ideal)) W (Proc.devRef .tc main_v12)
      = val_main_v12 (F := Ideal) (W (Proc.devRef .tc main_arg1)) := by
  dsimp only [hostOps0]
  after_results_simp
  results_rw
  rfl

set_option maxHeartbeats 400000 in
/-- The reciprocal square root of the in-degree. -/
theorem rsqrtdeg_after0 :
    StableHlo.after (hostOps0 (F := Ideal)) W (Proc.devRef .tc main_v13)
      = val_main_v13 (F := Ideal) (W (Proc.devRef .tc main_arg1)) := by
  dsimp only [hostOps0]
  after_results_simp
  results_rw
  rfl

set_option maxHeartbeats 400000 in
/-- The zero the selection falls back to. -/
theorem zero_after0 :
    StableHlo.after (hostOps0 (F := Ideal)) W (Proc.devRef .tc main_cst_2) = val_main_cst_2 (F := Ideal) := by
  dsimp only [hostOps0]
  after_results_simp
  rfl

set_option maxHeartbeats 400000 in
/-- The selection: the reciprocal square root where the degree is positive, zero elsewhere. -/
theorem invsqrt_after1 (x1 : (⟨S2x1600000, .i32⟩ : BufTy).Contents (Elt Ideal))
    (h12 : W (Proc.devRef .tc main_v12) = val_main_v12 (F := Ideal) x1)
    (h13 : W (Proc.devRef .tc main_v13) = val_main_v13 (F := Ideal) x1)
    (hz : W (Proc.devRef .tc main_cst_2) = val_main_cst_2 (F := Ideal)) :
    StableHlo.after (hostOps0_1 (F := Ideal)) W (Proc.devRef .tc main_v14) = val_main_v14 (F := Ideal) x1 := by
  have e : StableHlo.after (hostOps0_1 (F := Ideal)) W (Proc.devRef .tc main_v14)
      = select (W (Proc.devRef .tc main_v12)) (W (Proc.devRef .tc main_v13))
          (broadcastInDim S100000 ![] bcast_S_S100000 (id (W (Proc.devRef .tc main_cst_2)))) := by
    dsimp only [hostOps0_1]
    after_results
    rfl
  rw [e, h12, h13, hz]
  rfl

set_option maxHeartbeats 400000 in
/-- The edge weights: that vector gathered at the sources and at the destinations, multiplied. -/
theorem weight_after2 (x1 : (⟨S2x1600000, .i32⟩ : BufTy).Contents (Elt Ideal))
    (h3 : W (Proc.devRef .tc main_v3) = val_main_v3 (F := Ideal) x1)
    (h6 : W (Proc.devRef .tc main_v6) = val_main_v6 (F := Ideal) x1)
    (h14 : W (Proc.devRef .tc main_v14) = val_main_v14 (F := Ideal) x1) :
    StableHlo.after (hostOps0_2 (F := Ideal)) W (Proc.devRef .tc main_v29) = val_main_v29 (F := Ideal) x1 := by
  dsimp only [hostOps0_2]
  after_results_simp
  rw [h3, h6, h14]
  rfl

end Stretches

/-! ## At the boundaries of the run -/

section Boundaries

variable (m : (ℓ : Loc nD τ sig) → Buf (Elt Ideal) ℓ) (ρ : Dev nD → PrngReg) (c : Dev nD)

/-- After the first stretch. -/
theorem v3_W1 : W1 m ρ c (Proc.devRef .tc main_v3)
    = val_main_v3 (F := Ideal) (m ((c : Thread nD τ).loc main_arg1)) := src_after0 (W0 m ρ c)
theorem v6_W1 : W1 m ρ c (Proc.devRef .tc main_v6)
    = val_main_v6 (F := Ideal) (m ((c : Thread nD τ).loc main_arg1)) := dst_after0 (W0 m ρ c)

/-- After the selection's stretch, which writes neither index vector. -/
theorem v3_W2 : W2 m ρ c (Proc.devRef .tc main_v3)
    = val_main_v3 (F := Ideal) (m ((c : Thread nD τ).loc main_arg1)) :=
  (kept (ops := hostOps0_1) (W1 m ρ c) main_v3 (by no_write)).trans (v3_W1 m ρ c)
theorem v6_W2 : W2 m ρ c (Proc.devRef .tc main_v6)
    = val_main_v6 (F := Ideal) (m ((c : Thread nD τ).loc main_arg1)) :=
  (kept (ops := hostOps0_1) (W1 m ρ c) main_v6 (by no_write)).trans (v6_W1 m ρ c)
theorem v14_W2 : W2 m ρ c (Proc.devRef .tc main_v14)
    = val_main_v14 (F := Ideal) (m ((c : Thread nD τ).loc main_arg1)) :=
  invsqrt_after1 (W1 m ρ c) _ (degpos_after0 (W0 m ρ c)) (rsqrtdeg_after0 (W0 m ρ c)) (zero_after0 (W0 m ρ c))

/-- At the first call's entry. -/
theorem v3_W3 : W3 m ρ c (Proc.devRef .tc main_v3)
    = val_main_v3 (F := Ideal) (m ((c : Thread nD τ).loc main_arg1)) :=
  (kept (ops := hostOps0_2) (W2 m ρ c) main_v3 (by no_write)).trans (v3_W2 m ρ c)
theorem v6_W3 : W3 m ρ c (Proc.devRef .tc main_v6)
    = val_main_v6 (F := Ideal) (m ((c : Thread nD τ).loc main_arg1)) :=
  (kept (ops := hostOps0_2) (W2 m ρ c) main_v6 (by no_write)).trans (v6_W2 m ρ c)
theorem v29_W3 : W3 m ρ c (Proc.devRef .tc main_v29)
    = val_main_v29 (F := Ideal) (m ((c : Thread nD τ).loc main_arg1)) :=
  weight_after2 (W2 m ρ c) _ (v3_W2 m ρ c) (v6_W2 m ρ c) (v14_W2 m ρ c)

/-- At the first call's exit: none of the three is one of its arrays. -/
theorem v3_W4 : W4 m ρ c (Proc.devRef .tc main_v3)
    = val_main_v3 (F := Ideal) (m ((c : Thread nD τ).loc main_arg1)) :=
  (W4_of_ne m ρ c main_v3 (by decide)).trans (v3_W3 m ρ c)
theorem v6_W4 : W4 m ρ c (Proc.devRef .tc main_v6)
    = val_main_v6 (F := Ideal) (m ((c : Thread nD τ).loc main_arg1)) :=
  (W4_of_ne m ρ c main_v6 (by decide)).trans (v6_W3 m ρ c)
theorem v29_W4 : W4 m ρ c (Proc.devRef .tc main_v29)
    = val_main_v29 (F := Ideal) (m ((c : Thread nD τ).loc main_arg1)) :=
  (W4_of_ne m ρ c main_v29 (by decide)).trans (v29_W3 m ρ c)

/-- At the second call's exit: the stretch between the calls writes none of the three, and none is one of the second
    call's arrays. -/
theorem v3_W6 : W6 m ρ c (Proc.devRef .tc main_v3)
    = val_main_v3 (F := Ideal) (m ((c : Thread nD τ).loc main_arg1)) :=
  (W6_of_ne m ρ c main_v3 (by decide)).trans
    ((kept (ops := hostOps1) (W4 m ρ c) main_v3 (by no_write)).trans (v3_W4 m ρ c))
theorem v6_W6 : W6 m ρ c (Proc.devRef .tc main_v6)
    = val_main_v6 (F := Ideal) (m ((c : Thread nD τ).loc main_arg1)) :=
  (W6_of_ne m ρ c main_v6 (by decide)).trans
    ((kept (ops := hostOps1) (W4 m ρ c) main_v6 (by no_write)).trans (v6_W4 m ρ c))
theorem v29_W6 : W6 m ρ c (Proc.devRef .tc main_v29)
    = val_main_v29 (F := Ideal) (m ((c : Thread nD τ).loc main_arg1)) :=
  (W6_of_ne m ρ c main_v29 (by decide)).trans
    ((kept (ops := hostOps1) (W4 m ρ c) main_v29 (by no_write)).trans (v29_W4 m ρ c))

end Boundaries

end Cert.Gcn.HostPrefix

end
-- ==== Proof.HostArgs.lean ====
/-
  An argument of the program read at any boundary of its run is its launch contents, and a reshaped parameter read
  at an index is the parameter at the index with the unit coordinate dropped.

  The run goes boundary by boundary: host lines, a call, host lines, a call, host lines, a call. No host operation
  writes an argument (each writes one buffer, its own result), and a call changes only its own arrays, of which an
  argument is at most an input. So the contents of an argument's buffer at a boundary walk back, stretch by stretch,
  to the launch memory. The host lines before the second and the third call reshape a bias vector of length n into
  a 1×n matrix and the scalar slope into a 1×1 matrix: a reshape keeps the row-major position, so entry (0, k) of the
  row is entry k of the vector, and the one entry of the 1×1 matrix is the scalar.
-/
import proofs.«150170_j4174708212139_1_alg».proof.Proof.Gen.KernelIdeal.Frame
import Idealize.ShloMosaic.Lib.ValueLayout

set_option maxRecDepth 16384

noncomputable section

namespace Cert.Gcn.HostPrefix

open Cert.KernelIdeal Cert.KernelIdeal.Gen
open Idealize.ShloMosaic Idealize.ShloMosaic.TcCoe Idealize.ShloMosaic.Tactic
open Idealize.ShloMosaic.ValueIdx (ix0 ix1 ix2)

/-- No operation of a literal stretch writes the given buffer: every operation writes one buffer, its result, and
    that is another reference. -/
local macro "no_write" : tactic => `(tactic|
  (simp only [hostOps0, hostOps0_1, hostOps0_2, hostOps1, hostOps2, List.Forall,
     StableHlo.nullary_writes, StableHlo.unary_writes, StableHlo.binary_writes, StableHlo.ternary_writes,
     StableHlo.reshape_writes, Finset.mem_singleton]
   repeat' apply And.intro
   all_goals exact StableHlo.devRef_ne_of_ne (by decide)))

/-! ## A buffer that nothing writes, boundary by boundary -/

section Walk

variable (m : (ℓ : Loc nD τ sig) → Buf (Elt Ideal) ℓ) (ρ : Dev nD → PrngReg) (c : Dev nD) (b : Ref sig .tc)

/-- At the first call's entry: the three stretches before it do not write the buffer. -/
theorem at_W3
    (h0 : (hostOps0 (F := Ideal)).Forall fun op => Proc.devRef .tc b ∉ op.writes)
    (h1 : (hostOps0_1 (F := Ideal)).Forall fun op => Proc.devRef .tc b ∉ op.writes)
    (h2 : (hostOps0_2 (F := Ideal)).Forall fun op => Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ (List.forall_iff_forall_mem.mp h2)
    _ = W1 m ρ c (Proc.devRef .tc b) := StableHlo.after_of_forall_not_mem _ _ (List.forall_iff_forall_mem.mp h1)
    _ = W0 m ρ c (Proc.devRef .tc b) := StableHlo.after_of_forall_not_mem _ _ (List.forall_iff_forall_mem.mp h0)
    _ = m ((c : Thread nD τ).loc b) := rfl

/-- At the first call's exit: the buffer is none of its arrays. -/
theorem at_W4 (a0 : ∀ w, Pipeline.arrRef spec0 w ≠ b)
    (h0 : (hostOps0 (F := Ideal)).Forall fun op => Proc.devRef .tc b ∉ op.writes)
    (h1 : (hostOps0_1 (F := Ideal)).Forall fun op => Proc.devRef .tc b ∉ op.writes)
    (h2 : (hostOps0_2 (F := Ideal)).Forall fun op => Proc.devRef .tc b ∉ op.writes) :
    W4 m ρ c (Proc.devRef .tc b) = m ((c : Thread nD τ).loc b) :=
  (W4_of_ne m ρ c b a0).trans (at_W3 m ρ c b h0 h1 h2)

/-- At the second call's entry. -/
theorem at_W5 (a0 : ∀ w, Pipeline.arrRef spec0 w ≠ b)
    (h0 : (hostOps0 (F := Ideal)).Forall fun op => Proc.devRef .tc b ∉ op.writes)
    (h1 : (hostOps0_1 (F := Ideal)).Forall fun op => Proc.devRef .tc b ∉ op.writes)
    (h2 : (hostOps0_2 (F := Ideal)).Forall fun op => Proc.devRef .tc b ∉ op.writes)
    (h3 : (hostOps1 (F := Ideal)).Forall fun op => Proc.devRef .tc b ∉ op.writes) :
    W5 m ρ c (Proc.devRef .tc b) = m ((c : Thread nD τ).loc b) :=
  (StableHlo.after_of_forall_not_mem _ _ (List.forall_iff_forall_mem.mp h3)).trans (at_W4 m ρ c b a0 h0 h1 h2)

/-- At the second call's exit: the buffer is none of its arrays. -/
theorem at_W6 (a0 : ∀ w, Pipeline.arrRef spec0 w ≠ b) (a1 : ∀ w, Pipeline.arrRef spec1 w ≠ b)
    (h0 : (hostOps0 (F := Ideal)).Forall fun op => Proc.devRef .tc b ∉ op.writes)
    (h1 : (hostOps0_1 (F := Ideal)).Forall fun op => Proc.devRef .tc b ∉ op.writes)
    (h2 : (hostOps0_2 (F := Ideal)).Forall fun op => Proc.devRef .tc b ∉ op.writes)
    (h3 : (hostOps1 (F := Ideal)).Forall fun op => Proc.devRef .tc b ∉ op.writes) :
    W6 m ρ c (Proc.devRef .tc b) = m ((c : Thread nD τ).loc b) :=
  (W6_of_ne m ρ c b a1).trans (at_W5 m ρ c b a0 h0 h1 h2 h3)

/-- At the third call's entry. -/
theorem at_W7 (a0 : ∀ w, Pipeline.arrRef spec0 w ≠ b) (a1 : ∀ w, Pipeline.arrRef spec1 w ≠ b)
    (h0 : (hostOps0 (F := Ideal)).Forall fun op => Proc.devRef .tc b ∉ op.writes)
    (h1 : (hostOps0_1 (F := Ideal)).Forall fun op => Proc.devRef .tc b ∉ op.writes)
    (h2 : (hostOps0_2 (F := Ideal)).Forall fun op => Proc.devRef .tc b ∉ op.writes)
    (h3 : (hostOps1 (F := Ideal)).Forall fun op => Proc.devRef .tc b ∉ op.writes)
    (h4 : (hostOps2 (F := Ideal)).Forall fun op => Proc.devRef .tc b ∉ op.writes) :
    W7 m ρ c (Proc.devRef .tc b) = m ((c : Thread nD τ).loc b) :=
  (StableHlo.after_of_forall_not_mem _ _ (List.forall_iff_forall_mem.mp h4)).trans (at_W6 m ρ c b a0 a1 h0 h1 h2 h3)

end Walk

/-! ## The arguments the calls read -/

section Arguments

variable (m : (ℓ : Loc nD τ sig) → Buf (Elt Ideal) ℓ) (ρ : Dev nD → PrngReg) (c : Dev nD)

/-- The node features, as the first call finds them. -/
theorem V3_arg0 : V3 m ρ c main_arg0 = m ((c : Thread nD τ).loc main_arg0) :=
  at_W3 m ρ c main_arg0 (by no_write) (by no_write) (by no_write)

/-- The first layer's weights, as the first call finds them. -/
theorem V3_arg2 : V3 m ρ c main_arg2 = m ((c : Thread nD τ).loc main_arg2) :=
  at_W3 m ρ c main_arg2 (by no_write) (by no_write) (by no_write)

/-- The first dropout's uniforms, as the second call finds them. -/
theorem V5_arg9 : V5 m ρ c main_arg9 = m ((c : Thread nD τ).loc main_arg9) :=
  at_W5 m ρ c main_arg9 (by decide) (by no_write) (by no_write) (by no_write) (by no_write)

/-- The second layer's weights, as the second call finds them. -/
theorem V5_arg4 : V5 m ρ c main_arg4 = m ((c : Thread nD τ).loc main_arg4) :=
  at_W5 m ρ c main_arg4 (by decide) (by no_write) (by no_write) (by no_write) (by no_write)

/-- The second dropout's uniforms, as the third call finds them. -/
theorem V7_arg10 : V7 m ρ c main_arg10 = m ((c : Thread nD τ).loc main_arg10) :=
  at_W7 m ρ c main_arg10 (by decide) (by decide) (by no_write) (by no_write) (by no_write) (by no_write) (by no_write)

/-- The classifier's weights, as the third call finds them. -/
theorem V7_arg7 : V7 m ρ c main_arg7 = m ((c : Thread nD τ).loc main_arg7) :=
  at_W7 m ρ c main_arg7 (by decide) (by decide) (by no_write) (by no_write) (by no_write) (by no_write) (by no_write)

end Arguments

/-! ## The reshaped parameters -/

section Reshapes

variable (W : Valuation τ sig (Elt Ideal))

/-- A scalar reshaped to any shape reads the scalar's one entry at every index. -/
theorem shapeCast_scalar_apply {α : Type} {t : Shape} (x : (⟨0, ![]⟩ : Shape).Idx → α)
    (h : (⟨0, ![]⟩ : Shape).ShapeCasts t) (j : t.Idx) : shapeCast t x h j = x ix0 := by
  unfold shapeCast
  exact congrArg x (funext fun a => a.elim0)

set_option maxHeartbeats 400000 in
/-- The first bias as a row: entry (0, k) after the second stretch is entry k of the vector before it. -/
theorem bias1_after1 (k : Fin 128) :
    StableHlo.after (hostOps1 (F := Ideal)) W (Proc.devRef .tc main_v44) (ix2 0 k)
      = W (Proc.devRef .tc main_arg3) (ix1 k) := by
  dsimp only [hostOps1]
  after_results
  exact ValueIdx.shapeCast_a_1a_apply _ _ 0 k

set_option maxHeartbeats 400000 in
/-- The slope as a 1×1 matrix, before the second call. -/
theorem slope_after1 :
    StableHlo.after (hostOps1 (F := Ideal)) W (Proc.devRef .tc main_v45) (ix2 0 0)
      = W (Proc.devRef .tc main_arg6) ix0 := by
  dsimp only [hostOps1]
  after_results
  exact shapeCast_scalar_apply _ _ _

set_option maxHeartbeats 400000 in
/-- The second bias as a row. -/
theorem bias2_after2 (k : Fin 16) :
    StableHlo.after (hostOps2 (F := Ideal)) W (Proc.devRef .tc main_v60) (ix2 0 k)
      = W (Proc.devRef .tc main_arg5) (ix1 k) := by
  dsimp only [hostOps2]
  after_results
  exact ValueIdx.shapeCast_a_1a_apply _ _ 0 k

set_option maxHeartbeats 400000 in
/-- The slope as a 1×1 matrix, before the third call. -/
theorem slope_after2 :
    StableHlo.after (hostOps2 (F := Ideal)) W (Proc.devRef .tc main_v61) (ix2 0 0)
      = W (Proc.devRef .tc main_arg6) ix0 := by
  dsimp only [hostOps2]
  after_results
  exact shapeCast_scalar_apply _ _ _

set_option maxHeartbeats 400000 in
/-- The classifier's bias as a row. -/
theorem bias3_after2 (k : Fin 10) :
    StableHlo.after (hostOps2 (F := Ideal)) W (Proc.devRef .tc main_v62) (ix2 0 k)
      = W (Proc.devRef .tc main_arg8) (ix1 k) := by
  dsimp only [hostOps2]
  after_results
  exact ValueIdx.shapeCast_a_1a_apply _ _ 0 k

end Reshapes

section ReshapedParameters

variable (m : (ℓ : Loc nD τ sig) → Buf (Elt Ideal) ℓ) (ρ : Dev nD → PrngReg) (c : Dev nD)

/-- The first bias, as the second call finds it: a row whose entry (0, k) is the launch vector's entry k. -/
theorem V5_v44 : ∀ k : Fin 128, V5 m ρ c main_v44 (ix2 0 k) = m ((c : Thread nD τ).loc main_arg3) (ix1 k) := fun k =>
  (bias1_after1 (W4 m ρ c) k).trans
    (congrFun (at_W4 m ρ c main_arg3 (by decide) (by no_write) (by no_write) (by no_write)) (ix1 k))

/-- The slope, as the second call finds it: the launch scalar as a 1×1 matrix. -/
theorem V5_v45 : V5 m ρ c main_v45 (ix2 0 0) = m ((c : Thread nD τ).loc main_arg6) ix0 :=
  (slope_after1 (W4 m ρ c)).trans
    (congrFun (at_W4 m ρ c main_arg6 (by decide) (by no_write) (by no_write) (by no_write)) ix0)

/-- The second bias, as the third call finds it. -/
theorem V7_v60 : ∀ k : Fin 16, V7 m ρ c main_v60 (ix2 0 k) = m ((c : Thread nD τ).loc main_arg5) (ix1 k) := fun k =>
  (bias2_after2 (W6 m ρ c) k).trans
    (congrFun (at_W6 m ρ c main_arg5 (by decide) (by decide) (by no_write) (by no_write) (by no_write) (by no_write)) (ix1 k))

/-- The slope, as the third call finds it. -/
theorem V7_v61 : V7 m ρ c main_v61 (ix2 0 0) = m ((c : Thread nD τ).loc main_arg6) ix0 :=
  (slope_after2 (W6 m ρ c)).trans
    (congrFun (at_W6 m ρ c main_arg6 (by decide) (by decide) (by no_write) (by no_write) (by no_write) (by no_write)) ix0)

/-- The classifier's bias, as the third call finds it. -/
theorem V7_v62 : ∀ k : Fin 10, V7 m ρ c main_v62 (ix2 0 k) = m ((c : Thread nD τ).loc main_arg8) (ix1 k) := fun k =>
  (bias3_after2 (W6 m ρ c) k).trans
    (congrFun (at_W6 m ρ c main_arg8 (by decide) (by decide) (by no_write) (by no_write) (by no_write) (by no_write)) (ix1 k))

end ReshapedParameters

end Cert.Gcn.HostPrefix

end
-- ==== Proof.KernelValue.lean ====
/-
  What the idealized kernel leaves in its two result buffers, as the reference's own stages of the launch contents.

  The kernel is a two-layer graph convolution in three pipelined calls among host lines. Write x0 … x10 for the
  launch contents of the eleven arguments. Boundary by boundary:
    * the first call's output array is the matrix product x0·x2, the reference's stage `val_main_v30`;
    * the host lines between the first and second call gather its rows along the edges, scale them by the edge
      normalisation and scatter-add them by destination: the same lines as the reference's, applied to an equal array
      and to equal edge data, so their result is the reference's stage `val_main_v43` (the gather and the
      scatter-add are never opened);
    * the second call adds the bias, applies the parametric rectifier and the dropout mask with scale 2, and multiplies
      by the second weight matrix: the reference's stage `val_main_v57` (there the dropout divides by 1/2, which is
      the same extended real);
    * the second aggregation stretch gives `val_main_v70` in the same way;
    * the third call's two outputs are the second layer's features `val_main_v83` and the classifier's logits
      `val_main_v87`.
  No step needs the inputs to be finite: sums are regrouped, never distributed.
-/
import proofs.«150170_j4174708212139_1_alg».proof.Proof.Gen.KernelIdeal.Frame
import proofs.«150170_j4174708212139_1_alg».proof.Proof.RefRead
import proofs.«150170_j4174708212139_1_alg».proof.Proof.Region0
import proofs.«150170_j4174708212139_1_alg».proof.Proof.Region1
import proofs.«150170_j4174708212139_1_alg».proof.Proof.Region2
import proofs.«150170_j4174708212139_1_alg».proof.Proof.HostAgg
import proofs.«150170_j4174708212139_1_alg».proof.Proof.HostPrefix
import proofs.«150170_j4174708212139_1_alg».proof.Proof.HostArgs

set_option maxRecDepth 16384

noncomputable section

namespace Cert.Gcn.KernelValue

open Cert.KernelIdeal Cert.KernelIdeal.Gen
open Idealize.ShloMosaic Idealize.ShloMosaic.TcCoe Idealize.SL.Sem
open Cert.ReferenceIdeal.ReadP (val_main_v30 val_main_v43 val_main_v57 val_main_v70 val_main_v83 val_main_v87)

variable (m : (ℓ : Loc nD τ sig) → Buf (Elt Ideal) ℓ) (ρ : Dev nD → PrngReg) (c : Dev nD)

/-- After the first call its output array is x0·x2. -/
theorem first_product :
    W4 m ρ c (Proc.devRef .tc main_v30) = val_main_v30 (F := Ideal) (m ((c : Thread nD τ).loc main_arg0)) (m ((c : Thread nD τ).loc main_arg2)) := by
  have h := (W4_arr m ρ c 2).trans (Cert.Gcn.Region0.array_eq (V3 m ρ) c)
  rw [Cert.Gcn.HostPrefix.V3_arg0 m ρ c, Cert.Gcn.HostPrefix.V3_arg2 m ρ c] at h
  exact h

/-- The first aggregation of the normalised neighbours' rows, as the second call finds it. -/
theorem first_aggregate :
    V5 m ρ c main_v43 = val_main_v43 (F := Ideal) (m ((c : Thread nD τ).loc main_arg0)) (m ((c : Thread nD τ).loc main_arg1)) (m ((c : Thread nD τ).loc main_arg2)) :=
  Cert.Gcn.HostAgg.agg1 m ρ c _ _ _ (Cert.Gcn.HostPrefix.v3_W4 m ρ c) (Cert.Gcn.HostPrefix.v6_W4 m ρ c)
    (Cert.Gcn.HostPrefix.v29_W4 m ρ c) (first_product m ρ c)

/-- After the second call its output array is the first layer's features times the second weight matrix. -/
theorem second_product :
    W6 m ρ c (Proc.devRef .tc main_v46)
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) :=
  (W6_arr m ρ c 5).trans (Cert.Gcn.Region1.array_eq (V5 m ρ) c _ _ _ _ _ _ _ (first_aggregate m ρ c)
    (Cert.Gcn.HostPrefix.V5_v44 m ρ c) (Cert.Gcn.HostPrefix.V5_v45 m ρ c)
    (Cert.Gcn.HostPrefix.V5_arg9 m ρ c) (Cert.Gcn.HostPrefix.V5_arg4 m ρ c))

/-- The second aggregation, as the third call finds it. -/
theorem second_aggregate :
    V7 m ρ c main_v59
      = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) :=
  Cert.Gcn.HostAgg.agg2 m ρ c _ _ _ _ _ _ _ (Cert.Gcn.HostPrefix.v3_W6 m ρ c) (Cert.Gcn.HostPrefix.v6_W6 m ρ c)
    (Cert.Gcn.HostPrefix.v29_W6 m ρ c) (second_product m ρ c)

/-- The first result: the second layer's features. -/
theorem features :
    W8 m ρ c (Proc.devRef .tc main_v63_0)
      = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W8_arr m ρ c 6).trans (Cert.Gcn.Region2.feat_eq (V7 m ρ) c _ _ _ _ _ _ _ _ _ (second_aggregate m ρ c)
    (Cert.Gcn.HostPrefix.V7_v60 m ρ c) (Cert.Gcn.HostPrefix.V7_v61 m ρ c) (Cert.Gcn.HostPrefix.V7_arg10 m ρ c))

/-- The second result: the classifier's logits. -/
theorem logits :
    W8 m ρ c (Proc.devRef .tc main_v63_1)
      = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 7).trans (Cert.Gcn.Region2.logits_eq (V7 m ρ) c _ _ _ _ _ _ _ _ _ (second_aggregate m ρ c)
    (Cert.Gcn.HostPrefix.V7_v60 m ρ c) (Cert.Gcn.HostPrefix.V7_v61 m ρ c) (Cert.Gcn.HostPrefix.V7_arg10 m ρ c) _ _
    (Cert.Gcn.HostPrefix.V7_arg7 m ρ c) (Cert.Gcn.HostPrefix.V7_v62 m ρ c))

end Cert.Gcn.KernelValue

end
-- ==== Proof.lean ====
/-
  The certificate of a two-layer graph convolution with a classifier head: a kernel of three pipelined calls among
  host lines, against a plain host reference.

  With x the node features, (src, dst) the edges with a self loop added per node, norm the symmetric degree
  normalisation dinv[src]·dinv[dst], a the rectifier's slope and u1, u2 the dropout draws, both programs compute
      h1     = x·W1                                   agg1 = Σ_{e : dst e = n} norm e · h1[src e]
      feat1  = drop(prelu(agg1 + b1, a), u1)          h2   = feat1·W2
      agg2   = Σ_{e : dst e = n} norm e · h2[src e]   feat2 = drop(prelu(agg2 + b2, a), u2)
      logits = feat2·fcW + fcb
  and return (feat2, logits), with prelu(h, a) = h if h > 0 else a·h. The kernel runs the three matrix products and
  the two epilogues as pipelined calls over bands of 4000 rows and leaves the edge gathers and scatter-adds to the
  host; the reference runs everything on the host. They differ in one spelling only: the kernel's dropout keeps
  h·2 where the reference keeps h / (1/2), the same extended real for every h. Over the extended reals the two
  results are therefore equal entry by entry, with no assumption on the inputs: a banded matrix product is the
  whole product read band by band, and the edge normalisation, the gathers and the scatter-adds are the same host
  operations on both sides applied to equal arrays.

  The three frames: the kernel's two are the generated frame certificates; the reference's is its run with the
  results dropped. The idealization rewrote nothing, so what it must preserve is the trivial proposition. The
  algebraic claim joins the kernel's run, read back to the reference's own stages of the launch contents
  (Proof/KernelRun.lean, Proof/KernelValue.lean), with the reference's run (Proof/RefRun.lean, Proof/RefRead.lean)
  from a memory that agrees with the kernel's on the arguments.
-/
import proofs.«150170_j4174708212139_1_alg».proof.Defs
import proofs.«150170_j4174708212139_1_alg».proof.Proof.Gen.Kernel
import proofs.«150170_j4174708212139_1_alg».proof.Proof.Gen.Kernel.Skeleton
import proofs.«150170_j4174708212139_1_alg».proof.Proof.Gen.Kernel.Launch
import proofs.«150170_j4174708212139_1_alg».proof.Proof.Gen.Kernel.Points
import proofs.«150170_j4174708212139_1_alg».proof.Proof.Gen.Kernel.Frame
import proofs.«150170_j4174708212139_1_alg».proof.Proof.Gen.KernelIdeal
import proofs.«150170_j4174708212139_1_alg».proof.Proof.Gen.KernelIdeal.Skeleton
import proofs.«150170_j4174708212139_1_alg».proof.Proof.Gen.KernelIdeal.Launch
import proofs.«150170_j4174708212139_1_alg».proof.Proof.Gen.KernelIdeal.Points
import proofs.«150170_j4174708212139_1_alg».proof.Proof.Gen.KernelIdeal.Frame
import proofs.«150170_j4174708212139_1_alg».proof.Proof.Gen.ReferenceIdeal
import proofs.«150170_j4174708212139_1_alg».proof.Proof.Gen.Pre_finite_inputs
import proofs.«150170_j4174708212139_1_alg».proof.Proof.RefRun
import proofs.«150170_j4174708212139_1_alg».proof.Proof.RefRead
import proofs.«150170_j4174708212139_1_alg».proof.Proof.KernelRun
import proofs.«150170_j4174708212139_1_alg».proof.Proof.KernelValue
import Idealize.ShloMosaic.Adequacy
import Idealize.ShloMosaic.Init

noncomputable section

namespace Cert.Proof

open Idealize.ShloMosaic Idealize.SL.Sem

/-- From memories that agree on the arguments both idealized programs run to the end, and their results are equal
    as extended reals: each is the reference's last stage of the kernel's launch contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.KernelValue.features m ρ c), (h c).2.1.trans (Cert.Gcn.KernelValue.logits m ρ c), (h c).2.2⟩)
      (Cert.Gcn.KernelRun.run_named (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10⟩ := hagree c
      rw [Cert.ReferenceIdeal.ReadP.val_main_v83_eq, e0, e1, e2, e3, e4, e5, e6, e9, e10]
    · obtain ⟨e0, e1, e2, e3, e4, e5, e6, e7, e8, e9, e10⟩ := hagree c
      rw [Cert.ReferenceIdeal.ReadP.val_main_v87_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.ValueP.run (F := Ideal) m ρ),
  trivial,
  algebraic⟩

end Cert.Proof

end
